-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x160 : Shape := ⟨2, ![50000, 160]⟩
abbrev S50000 : Shape := ⟨1, ![50000]⟩
abbrev S32x48 : Shape := ⟨2, ![32, 48]⟩
abbrev S48 : Shape := ⟨1, ![48]⟩
abbrev S131x256 : Shape := ⟨2, ![131, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x160 : S_.BroadcastsInDim S50000x160 (![] : Fin 0 → Fin S50000x160.rank)
  reducesTo_S50000x160_S_d0_1 : S50000x160.ReducesTo [0, 1] S_
  bcast_S_S32x48 : S_.BroadcastsInDim S32x48 (![] : Fin 0 → Fin S32x48.rank)
  reducesTo_S32x48_S_d0_1 : S32x48.ReducesTo [0, 1] S_
  bcast_S_S48 : S_.BroadcastsInDim S48 (![] : Fin 0 → Fin S48.rank)
  reducesTo_S48_S_d0 : S48.ReducesTo [0] S_
  bcast_S_S131x256 : S_.BroadcastsInDim S131x256 (![] : Fin 0 → Fin S131x256.rank)
  reducesTo_S131x256_S_d0_1 : S131x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S128 .f32) (main_arg9 : FVec F S128x32 .f32) (main_arg10 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S131x256 .f32) (main_arg6 : FVec F S256 .f32) (main_arg7 : FVec F S256x128 .f32) (main_arg8 : FVec F S128 .f32) (main_arg9 : FVec F S128x32 .f32) (main_arg10 : FVec F S32 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S131x256 .f32 := Host.absf main_arg5
  let main_cst_6 : FVec F S_ .f32 := constant S_ .f32 0x7F800000#32
  let main_v20 : FVec F S131x256 .f32 := broadcastInDim S131x256 ![] bcast_S_S131x256 main_cst_6
  let main_v21 : IVec S131x256 1 := cmpf .olt main_v19 main_v20
  let main_c_7 : IVec S_ 1 := constantI S_ 1 1#1
  let main_v22 : IVec S_ 1 := (fun x v => Host.reduce IntOp.andi x v reducesTo_S131x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x3 .f32) (main_arg1 : FVec F S50000x160 .f32) (main_arg2 : IVec S50000 32) (main_arg3 : FVec F S32x48 .f32) (main_arg4 : FVec F S48 .f32) (main_arg5 : FVec F S131x256 .f32) (main_arg6 : FVec F S256 .f32) (main_arg7 : FVec F S256x128 .f32) (main_arg8 : FVec F S128 .f32) (main_arg9 : FVec F S128x32 .f32) (main_arg10 : FVec F S32 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x160 .f32 := Host.absf main_arg1
  let main_cst_0 : FVec F S_ .f32 := constant S_ .f32 0x7F800000#32
  let main_v5 : FVec F S50000x160 .f32 := broadcastInDim S50000x160 ![] bcast_S_S50000x160 main_cst_0
  let main_v6 : IVec S50000x160 1 := cmpf .olt main_v4 main_v5
  let main_c_1 : IVec S_ 1 := constantI S_ 1 1#1
  let main_v7 : IVec S_ 1 := (fun x v => Host.reduce IntOp.andi x v reducesTo_S50000x160_S_d0_1 h_S_) main_v6 main_c_1
  let main_v8 : IVec S_ 1 := andi main_v3 main_v7
  let main_v9 : FVec F S32x48 .f32 := Host.absf main_arg3
  let main_cst_2 : FVec F S_ .f32 := constant S_ .f32 0x7F800000#32
  let main_v10 : FVec F S32x48 .f32 := broadcastInDim S32x48 ![] bcast_S_S32x48 main_cst_2
  let main_v11 : IVec S32x48 1 := cmpf .olt main_v9 main_v10
  let main_c_3 : IVec S_ 1 := constantI S_ 1 1#1
  let main_v12 : IVec S_ 1 := (fun x v => Host.reduce IntOp.andi x v reducesTo_S32x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_arg7 main_arg8 main_arg9 main_arg10 main_v13 main_v16
-- ==== Kernel.lean ====
abbrev S50000x3 : Shape := ⟨2, ![50000, 3]⟩
abbrev S50000x160 : Shape := ⟨2, ![50000, 160]⟩
abbrev S50000 : Shape := ⟨1, ![50000]⟩
abbrev S32x48 : Shape := ⟨2, ![32, 48]⟩
abbrev S48 : Shape := ⟨1, ![48]⟩
abbrev S131x256 : Shape := ⟨2, ![131, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S3x256 : Shape := ⟨2, ![3, 256]⟩
abbrev S128x256 : Shape := ⟨2, ![128, 256]⟩
abbrev S1x48 : Shape := ⟨2, ![1, 48]⟩
abbrev S1x256 : Shape := ⟨2, ![1, 256]⟩
abbrev S1x128 : Shape := ⟨2, ![1, 128]⟩
abbrev S1x32 : Shape := ⟨2, ![1, 32]⟩
abbrev S50000x48 : Shape := ⟨2, ![50000, 48]⟩
abbrev S50000x512 : Shape := ⟨2, ![50000, 512]⟩
abbrev S1000x160 : Shape := ⟨2, ![1000, 160]⟩
abbrev S1000x3 : Shape := ⟨2, ![1000, 3]⟩
abbrev S1000x48 : Shape := ⟨2, ![1000, 48]⟩
abbrev S1000x512 : Shape := ⟨2, ![1000, 512]⟩
abbrev S1000x32 : Shape := ⟨2, ![1000, 32]⟩
abbrev S1000x128 : Shape := ⟨2, ![1000, 128]⟩
abbrev S1000x256 : Shape := ⟨2, ![1000, 256]⟩
abbrev S800000x3 : Shape := ⟨2, ![800000, 3]⟩
abbrev S800000x32 : Shape := ⟨2, ![800000, 32]⟩
abbrev S50000x16 : Shape := ⟨2, ![50000, 16]⟩
abbrev S800000 : Shape := ⟨1, ![800000]⟩

abbrev nBuf : Space → Nat
  | .hbm => 28
  | .vmem => 17
  | .smem => 0
  | _ => 0

abbrev bufTy : (tb : Table) → Fin (tcTables nBuf tb) → BufTy
  | .hbm, ⟨0, _⟩ => ⟨S50000x3, .f32⟩
  | .hbm, ⟨1, _⟩ => ⟨S50000x160, .f32⟩
  | .hbm, ⟨2, _⟩ => ⟨S50000, .i32⟩
  | .hbm, ⟨3, _⟩ => ⟨S32x48, .f32⟩
  | .hbm, ⟨4, _⟩ => ⟨S48, .f32⟩
  | .hbm, ⟨5, _⟩ => ⟨S131x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S32x48, .bf16⟩
  | .hbm, ⟨12, _⟩ => ⟨S3x256, .f32⟩
  | .hbm, ⟨13, _⟩ => ⟨S3x256, .bf16⟩
  | .hbm, ⟨14, _⟩ => ⟨S128x256, .f32⟩
  | .hbm, ⟨15, _⟩ => ⟨S128x256, .bf16⟩
  | .hbm, ⟨16, _⟩ => ⟨S256x128, .bf16⟩
  | .hbm, ⟨17, _⟩ => ⟨S128x32, .bf16⟩
  | .hbm, ⟨18, _⟩ => ⟨S1x48, .f32⟩
  | .hbm, ⟨19, _⟩ => ⟨S1x256, .f32⟩
  | .hbm, ⟨20, _⟩ => ⟨S1x128, .f32⟩
  | .hbm, ⟨21, _⟩ => ⟨S1x32, .f32⟩
  | .hbm, ⟨22, _⟩ => ⟨S50000x48, .f32⟩
  | .hbm, ⟨23, _⟩ => ⟨S50000x512, .f32⟩
  | .hbm, ⟨24, _⟩ => ⟨S800000x3, .f32⟩
  | .hbm, ⟨25, _⟩ => ⟨S800000x32, .f32⟩
  | .hbm, ⟨26, _⟩ => ⟨S50000x16, .i32⟩
  | .hbm, ⟨27, _⟩ => ⟨S800000, .i32⟩
  | .local _ .vmem, ⟨0, _⟩ => ⟨S1000x160, .f32⟩
  | .local _ .vmem, ⟨1, _⟩ => ⟨S1000x160, .f32⟩
  | .local _ .vmem, ⟨2, _⟩ => ⟨S1000x3, .f32⟩
  | .local _ .vmem, ⟨3, _⟩ => ⟨S1000x3, .f32⟩
  | .local _ .vmem, ⟨4, _⟩ => ⟨S32x48, .bf16⟩
  | .local _ .vmem, ⟨5, _⟩ => ⟨S1x48, .f32⟩
  | .local _ .vmem, ⟨6, _⟩ => ⟨S3x256, .bf16⟩
  | .local _ .vmem, ⟨7, _⟩ => ⟨S128x256, .bf16⟩
  | .local _ .vmem, ⟨8, _⟩ => ⟨S1x256, .f32⟩
  | .local _ .vmem, ⟨9, _⟩ => ⟨S256x128, .bf16⟩
  | .local _ .vmem, ⟨10, _⟩ => ⟨S1x128, .f32⟩
  | .local _ .vmem, ⟨11, _⟩ => ⟨S128x32, .bf16⟩
  | .local _ .vmem, ⟨12, _⟩ => ⟨S1x32, .f32⟩
  | .local _ .vmem, ⟨13, _⟩ => ⟨S1000x48, .f32⟩
  | .local _ .vmem, ⟨14, _⟩ => ⟨S1000x48, .f32⟩
  | .local _ .vmem, ⟨15, _⟩ => ⟨S1000x512, .f32⟩
  | .local _ .vmem, ⟨16, _⟩ => ⟨S1000x512, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x48 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x48 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  slices_S131x256_S3x256_0_0 : S131x256.Slices ![0, 0] S3x256
  slices_S131x256_S128x256_3_0 : S131x256.Slices ![3, 0] S128x256
  shapeCasts_S48_S1x48 : S48.ShapeCasts S1x48
  shapeCasts_S256_S1x256 : S256.ShapeCasts S1x256
  shapeCasts_S128_S1x128 : S128.ShapeCasts S1x128
  shapeCasts_S32_S1x32 : S32.ShapeCasts S1x32
  inb_S1000x160_S1000x160_0_0 : ∀ a, (![0, 0] : Fin 2 → Nat) a + S1000x160.size a ≤ S1000x160.size a
  h_S1000x160 : 0 < S1000x160.numel
  slices_S1000x160_o0_0_S1000x32 : S1000x160.Slices ![0, 0] S1000x32
  slices_S1000x160_o0_32_S1000x128 : S1000x160.Slices ![0, 32] S1000x128
  inb_S1000x3_S1000x3_0_0 : ∀ a, (![0, 0] : Fin 2 → Nat) a + S1000x3.size a ≤ S1000x3.size a
  h_S1000x3 : 0 < S1000x3.numel
  inb_S32x48_S32x48_0_0 : ∀ a, (![0, 0] : Fin 2 → Nat) a + S32x48.size a ≤ S32x48.size a
  h_S32x48 : 0 < S32x48.numel
  shapeCasts_S32x48_S32x48 : S32x48.ShapeCasts S32x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S1000x48 : S1x48.Broadcasts S1000x48
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  slices_S1000x48_o0_0_S1000x3 : S1000x48.Slices ![0, 0] S1000x3
  broadcasts_S1x128_S1000x128 : S1x128.Broadcasts S1000x128
  broadcasts_S1x32_S1000x32 : S1x32.Broadcasts S1000x32
  slices_S1000x48_o0_3_S1000x3 : S1000x48.Slices ![0, 3] S1000x3
  slices_S1000x48_o0_6_S1000x3 : S1000x48.Slices ![0, 6] S1000x3
  slices_S1000x48_o0_9_S1000x3 : S1000x48.Slices ![0, 9] S1000x3
  concatenates_S1000x32_S1000x32_S1000x32_S1000x32_S1000x128_d1 : Shape.Concatenates [S1000x32, S1000x32, S1000x32, S1000x32] S1000x128 1
  inb_S1000x512_S1000x128_0_0 : ∀ a, (![0, 0] : Fin 2 → Nat) a + S1000x128.size a ≤ S1000x512.size a
  h_S1000x128 : 0 < S1000x128.numel
  slices_S1000x48_o0_12_S1000x3 : S1000x48.Slices ![0, 12] S1000x3
  slices_S1000x48_o0_15_S1000x3 : S1000x48.Slices ![0, 15] S1000x3
  slices_S1000x48_o0_18_S1000x3 : S1000x48.Slices ![0, 18] S1000x3
  slices_S1000x48_o0_21_S1000x3 : S1000x48.Slices ![0, 21] S1000x3
  inb_S1000x512_S1000x128_0_128 : ∀ a, (![0, 128] : Fin 2 → Nat) a + S1000x128.size a ≤ S1000x512.size a
  slices_S1000x48_o0_24_S1000x3 : S1000x48.Slices ![0, 24] S1000x3
  slices_S1000x48_o0_27_S1000x3 : S1000x48.Slices ![0, 27] S1000x3
  slices_S1000x48_o0_30_S1000x3 : S1000x48.Slices ![0, 30] S1000x3
  slices_S1000x48_o0_33_S1000x3 : S1000x48.Slices ![0, 33] S1000x3
  inb_S1000x512_S1000x128_0_256 : ∀ a, (![0, 256] : Fin 2 → Nat) a + S1000x128.size a ≤ S1000x512.size a
  slices_S1000x48_o0_36_S1000x3 : S1000x48.Slices ![0, 36] S1000x3
  slices_S1000x48_o0_39_S1000x3 : S1000x48.Slices ![0, 39] S1000x3
  slices_S1000x48_o0_42_S1000x3 : S1000x48.Slices ![0, 42] S1000x3
  slices_S1000x48_o0_45_S1000x3 : S1000x48.Slices ![0, 45] S1000x3
  inb_S1000x512_S1000x128_0_384 : ∀ a, (![0, 384] : Fin 2 → Nat) a + S1000x128.size a ≤ S1000x512.size a
  concatenates_S1000x3_S1000x3_S1000x3_S1000x3_S1000x3_S1000x3_S1000x3_S1000x3_S1000x3_S1000x3_S1000x3_S1000x3_S1000x3_S1000x3_S1000x3_S1000x3_S1000x48_d1 : Shape.Concatenates [S1000x3, S1000x3, S1000x3, S1000x3, S1000x3, S1000x3, S1000x3, S1000x3, S1000x3, S1000x3, S1000x3, S1000x3, S1000x3, S1000x3, S1000x3, S1000x3] S1000x48 1
  inb_S1000x48_S1000x48_0_0 : ∀ a, (![0, 0] : Fin 2 → Nat) a + S1000x48.size a ≤ S1000x48.size a
  h_S1000x48 : 0 < S1000x48.numel
  shapeCasts_S50000x48_S800000x3 : S50000x48.ShapeCasts S800000x3
  shapeCasts_S50000x512_S800000x32 : S50000x512.ShapeCasts S800000x32
  bcast_S50000_S50000x16_0 : S50000.BroadcastsInDim S50000x16 (![0] : Fin 1 → Fin S50000x16.rank)
  shapeCasts_S50000x16_S800000 : S50000x16.ShapeCasts S800000
  dot_S1000x32_S32x48_S1000x48_1_0_0_1_n_n_wf : DotDims.WF S1000x32 S32x48 S1000x48 [1] [0] [0] [1] [] []
  dot_S1000x128_S128x256_S1000x256_1_0_0_1_n_n_wf : DotDims.WF S1000x128 S128x256 S1000x256 [1] [0] [0] [1] [] []
  dot_S1000x3_S3x256_S1000x256_1_0_0_1_n_n_wf : DotDims.WF S1000x3 S3x256 S1000x256 [1] [0] [0] [1] [] []
  dot_S1000x256_S256x128_S1000x128_1_0_0_1_n_n_wf : DotDims.WF S1000x256 S256x128 S1000x128 [1] [0] [0] [1] [] []
  dot_S1000x128_S128x32_S1000x32_1_0_0_1_n_n_wf : DotDims.WF S1000x128 S128x32 S1000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x160.size a ≤ S50000x160.size a
  hwx0_0 : ∀ i : grid0.Coords, EltTy.bits .f32 = 32 ∨ (Rect.block (s := S50000x160) S1000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x3.size a ≤ S50000x3.size a
  hwx0_1 : ∀ i : grid0.Coords, EltTy.bits .f32 = 32 ∨ (Rect.block (s := S50000x3) S1000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x48.size a ≤ S32x48.size a
  hwx0_2 : ∀ i : grid0.Coords, EltTy.bits .bf16 = 32 ∨ (Rect.block (s := S32x48) S32x48.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x48.size a ≤ S1x48.size a
  hwx0_3 : ∀ i : grid0.Coords, EltTy.bits .f32 = 32 ∨ (Rect.block (s := S1x48) S1x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x256.size a
  hwx0_4 : ∀ i : grid0.Coords, EltTy.bits .bf16 = 32 ∨ (Rect.block (s := S3x256) S3x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x32.size a ≤ S128x32.size a
  hwx0_9 : ∀ i : grid0.Coords, EltTy.bits .bf16 = 32 ∨ (Rect.block (s := S128x32) S128x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x48.size a ≤ S50000x48.size a
  hwx0_11 : ∀ i : grid0.Coords, EltTy.bits .f32 = 32 ∨ (Rect.block (s := S50000x48) S1000x48.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x512.size a ≤ S50000x512.size a
  hwx0_12 : ∀ i : grid0.Coords, EltTy.bits .f32 = 32 ∨ (Rect.block (s := S50000x512) S1000x512.size (cc0_transform_12 i) (hinb0_12 i)).WholeWords (EltTy.packing .f32)

variable [Facts₀]

def dot_S1000x32_S32x48_S1000x48_1_0_0_1_n_n : DotDims S1000x32 S32x48 S1000x48 where
  lhsContracting := [1]
  rhsContracting := [0]
  lhsNonContracting := [0]
  rhsNonContracting := [1]
  lhsBatch := []
  rhsBatch := []
  wf := dot_S1000x32_S32x48_S1000x48_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x3_S3x256_S1000x256_1_0_0_1_n_n : DotDims S1000x3 S3x256 S1000x256 where
  lhsContracting := [1]
  rhsContracting := [0]
  lhsNonContracting := [0]
  rhsNonContracting := [1]
  lhsBatch := []
  rhsBatch := []
  wf := dot_S1000x3_S3x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x32_S1000x32_1_0_0_1_n_n : DotDims S1000x128 S128x32 S1000x32 where
  lhsContracting := [1]
  rhsContracting := [0]
  lhsNonContracting := [0]
  rhsNonContracting := [1]
  lhsBatch := []
  rhsBatch := []
  wf := dot_S1000x128_S128x32_S1000x32_1_0_0_1_n_n_wf

abbrev win0_0 : Pipeline.Window sig grid0 :=
  Pipeline.Window.ofSpec (Memref.whole main_arg1) S1000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S3x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11_0) S1000x48.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11_1) S1000x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x3 : Shape := ⟨2, ![50000, 3]⟩
abbrev S50000x160 : Shape := ⟨2, ![50000, 160]⟩
abbrev S50000 : Shape := ⟨1, ![50000]⟩
abbrev S32x48 : Shape := ⟨2, ![32, 48]⟩
abbrev S48 : Shape := ⟨1, ![48]⟩
abbrev S131x256 : Shape := ⟨2, ![131, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S50000x32 : Shape := ⟨2, ![50000, 32]⟩
abbrev S50000x128 : Shape := ⟨2, ![50000, 128]⟩
abbrev S50000x48 : Shape := ⟨2, ![50000, 48]⟩
abbrev S1x48 : Shape := ⟨2, ![1, 48]⟩
abbrev S800000x3 : Shape := ⟨2, ![800000, 3]⟩
abbrev S50000x16 : Shape := ⟨2, ![50000, 16]⟩
abbrev S800000 : Shape := ⟨1, ![800000]⟩
abbrev S50000x16x128 : Shape := ⟨3, ![50000, 16, 128]⟩
abbrev S800000x128 : Shape := ⟨2, ![800000, 128]⟩
abbrev S800000x131 : Shape := ⟨2, ![800000, 131]⟩
abbrev S800000x256 : Shape := ⟨2, ![800000, 256]⟩
abbrev S1x256 : Shape := ⟨2, ![1, 256]⟩
abbrev S_ : Shape := ⟨0, ![]⟩
abbrev S1x128 : Shape := ⟨2, ![1, 128]⟩
abbrev S800000x32 : Shape := ⟨2, ![800000, 32]⟩
abbrev S1x32 : Shape := ⟨2, ![1, 32]⟩
abbrev S50000x16x3 : Shape := ⟨3, ![50000, 16, 3]⟩

abbrev nBuf : Space → Nat
  | .hbm => 50
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x160, .f32⟩
  | .hbm, ⟨2, _⟩ => ⟨S50000, .i32⟩
  | .hbm, ⟨3, _⟩ => ⟨S32x48, .f32⟩
  | .hbm, ⟨4, _⟩ => ⟨S48, .f32⟩
  | .hbm, ⟨5, _⟩ => ⟨S131x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S50000x32, .f32⟩
  | .hbm, ⟨12, _⟩ => ⟨S50000x128, .f32⟩
  | .hbm, ⟨13, _⟩ => ⟨S50000x48, .f32⟩
  | .hbm, ⟨14, _⟩ => ⟨S1x48, .f32⟩
  | .hbm, ⟨15, _⟩ => ⟨S50000x48, .f32⟩
  | .hbm, ⟨16, _⟩ => ⟨S50000x48, .f32⟩
  | .hbm, ⟨17, _⟩ => ⟨S800000x3, .f32⟩
  | .hbm, ⟨18, _⟩ => ⟨S50000x16, .i32⟩
  | .hbm, ⟨19, _⟩ => ⟨S800000, .i32⟩
  | .hbm, ⟨20, _⟩ => ⟨S50000x16x128, .f32⟩
  | .hbm, ⟨21, _⟩ => ⟨S800000x128, .f32⟩
  | .hbm, ⟨22, _⟩ => ⟨S800000x131, .f32⟩
  | .hbm, ⟨23, _⟩ => ⟨S800000x256, .f32⟩
  | .hbm, ⟨24, _⟩ => ⟨S1x256, .f32⟩
  | .hbm, ⟨25, _⟩ => ⟨S800000x256, .f32⟩
  | .hbm, ⟨26, _⟩ => ⟨S800000x256, .f32⟩
  | .hbm, ⟨27, _⟩ => ⟨S_, .f32⟩
  | .hbm, ⟨28, _⟩ => ⟨S800000x256, .f32⟩
  | .hbm, ⟨29, _⟩ => ⟨S800000x256, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x32, .f32⟩
  | .hbm, ⟨38, _⟩ => ⟨S1x32, .f32⟩
  | .hbm, ⟨39, _⟩ => ⟨S800000x32, .f32⟩
  | .hbm, ⟨40, _⟩ => ⟨S800000x32, .f32⟩
  | .hbm, ⟨41, _⟩ => ⟨S_, .f32⟩
  | .hbm, ⟨42, _⟩ => ⟨S800000x32, .f32⟩
  | .hbm, ⟨43, _⟩ => ⟨S800000x32, .f32⟩
  | .hbm, ⟨44, _⟩ => ⟨S50000x16x3, .f32⟩
  | .hbm, ⟨45, _⟩ => ⟨S800000x3, .f32⟩
  | .hbm, ⟨46, _⟩ => ⟨S_, .f32⟩
  | .hbm, ⟨47, _⟩ => ⟨S800000x3, .f32⟩
  | .hbm, ⟨48, _⟩ => ⟨S800000x3, .f32⟩
  | .hbm, ⟨49, _⟩ => ⟨S800000x3, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call2_cst : Ref sig .tc := ⟨.hbm, 41, rfl⟩
abbrev main_call2_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  slices_S50000x160_S50000x32_0_0 : S50000x160.Slices ![0, 0] S50000x32
  slices_S50000x160_S50000x128_0_32 : S50000x160.Slices ![0, 32] S50000x128
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  shapeCasts_S50000x48_S800000x3 : S50000x48.ShapeCasts S800000x3
  bcast_S50000_S50000x16_0 : S50000.BroadcastsInDim S50000x16 (![0] : Fin 1 → Fin S50000x16.rank)
  shapeCasts_S50000x16_S800000 : S50000x16.ShapeCasts S800000
  bcast_S50000x128_S50000x16x128_0_2 : S50000x128.BroadcastsInDim S50000x16x128 (![0, 2] : Fin 2 → Fin S50000x16x128.rank)
  shapeCasts_S50000x16x128_S800000x128 : S50000x16x128.ShapeCasts S800000x128
  concatenates_S800000x3_S800000x128_S800000x131_d1 : Shape.Concatenates [S800000x3, S800000x128] S800000x131 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S50000x3_S50000x16x3_0_2 : S50000x3.BroadcastsInDim S50000x16x3 (![0, 2] : Fin 2 → Fin S50000x16x3.rank)
  shapeCasts_S50000x16x3_S800000x3 : S50000x16x3.ShapeCasts S800000x3
  bcast_S_S800000x3 : S_.BroadcastsInDim S800000x3 (![] : Fin 0 → Fin S800000x3.rank)
  dot_S50000x32_S32x48_S50000x48_1_0_0_1_n_n_wf : DotDims.WF S50000x32 S32x48 S50000x48 [1] [0] [0] [1] [] []
  dot_S800000x131_S131x256_S800000x256_1_0_0_1_n_n_wf : DotDims.WF S800000x131 S131x256 S800000x256 [1] [0] [0] [1] [] []
  dot_S800000x256_S256x128_S800000x128_1_0_0_1_n_n_wf : DotDims.WF S800000x256 S256x128 S800000x128 [1] [0] [0] [1] [] []
  dot_S800000x128_S128x32_S800000x32_1_0_0_1_n_n_wf : DotDims.WF S800000x128 S128x32 S800000x32 [1] [0] [0] [1] [] []

variable [Facts₀]

def dot_S50000x32_S32x48_S50000x48_1_0_0_1_n_n : DotDims S50000x32 S32x48 S50000x48 where
  lhsContracting := [1]
  rhsContracting := [0]
  lhsNonContracting := [0]
  rhsNonContracting := [1]
  lhsBatch := []
  rhsBatch := []
  wf := dot_S50000x32_S32x48_S50000x48_1_0_0_1_n_n_wf
def dot_S800000x131_S131x256_S800000x256_1_0_0_1_n_n : DotDims S800000x131 S131x256 S800000x256 where
  lhsContracting := [1]
  rhsContracting := [0]
  lhsNonContracting := [0]
  rhsNonContracting := [1]
  lhsBatch := []
  rhsBatch := []
  wf := dot_S800000x131_S131x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x32_S800000x32_1_0_0_1_n_n : DotDims S800000x128 S128x32 S800000x32 where
  lhsContracting := [1]
  rhsContracting := [0]
  lhsNonContracting := [0]
  rhsNonContracting := [1]
  lhsBatch := []
  rhsBatch := []
  wf := dot_S800000x128_S128x32_S800000x32_1_0_0_1_n_n_wf

class Facts : Prop extends Facts₀ where

variable [Facts]
-- ==== Proof.Spec.lean ====
/-
  The mathematics both programs compute, stated once over plain functions of literal index types, on the extended reals.

  One point has a row of 160 features: the first 32 drive a linear "neighbourhood decoder" that yields 16 offsets of
  3 coordinates each (`rel`: 48 numbers); the other 128 are shared by the point's 16 neighbours. Neighbour `j` of
  the point is scored by a three-layer perceptron (256, 128, 32 units, a `max · 0` after every layer) whose input is
  the 3 offset coordinates of neighbour `j` followed by the 128 shared features. The first layer's sum over the 131
  inputs is written here in its split form: the shared features' part plus the bias (one value per point), plus the
  three-term part of neighbour `j`. The second result is the neighbour's position: the point plus a quarter of the
  offset.
-/
import Idealize.ShloMosaic.PureOps.Ideal
import Idealize.ShloMosaic.Lib.ValueIdx

noncomputable section

namespace Cert.Mlp

open Idealize.ShloMosaic Idealize.ShloMosaic.ValueIdx

/-- The zero both programs compare against after every layer (the same word on both sides; never evaluated). -/
def z : EReal := Ideal.ofBits .f32 0x00000000#32
/-- The radius 0.25 (the same word on both sides; never evaluated). -/
def quarter : EReal := Ideal.ofBits .f32 0x3E800000#32

/-- Column `k` of the 32 decoder features in a 160-wide feature row. -/
def colP (k : Fin 32) : Fin 160 := ⟨k.val, by have := k.isLt; omega⟩
/-- Column `32 + k` of a 160-wide feature row: shared feature `k`. -/
def colF (k : Fin 128) : Fin 160 := ⟨32 + k.val, by have := k.isLt; omega⟩
/-- Coordinate `d` of neighbour `j` among the 48 decoded offsets. -/
def off (j : Fin 16) (d : Fin 3) : Fin 48 := ⟨3 * j.val + d.val, by have := j.isLt; have := d.isLt; omega⟩
/-- Row `d` of the first layer's 131-row weight: an offset coordinate's row. -/
def w1top (d : Fin 3) : Fin 131 := ⟨d.val, by have := d.isLt; omega⟩
/-- Row `3 + k` of the first layer's 131-row weight: shared feature `k`'s row. -/
def w1bot (k : Fin 128) : Fin 131 := ⟨3 + k.val, by have := k.isLt; omega⟩

section
variable (row : Fin 160 → EReal) (pt : Fin 3 → EReal) (Wn : Fin 32 → Fin 48 → EReal) (bn : Fin 48 → EReal)
  (Wt : Fin 3 → Fin 256 → EReal) (Wb : Fin 128 → Fin 256 → EReal) (b1 : Fin 256 → EReal)
  (W2 : Fin 256 → Fin 128 → EReal) (b2 : Fin 128 → EReal) (W3 : Fin 128 → Fin 32 → EReal) (b3 : Fin 32 → EReal)

/-- Decoded offset `q` of a point: its 32 decoder features against column `q` of the decoder, plus the bias. -/
def rel (q : Fin 48) : EReal := (∑ k : Fin 32, row (colP k) * Wn k q) + bn q

/-- First layer, unit `c`, neighbour `j`: (shared features' part + bias) + the neighbour's three offset terms. -/
def lin1 (j : Fin 16) (c : Fin 256) : EReal :=
  ((∑ k : Fin 128, row (colF k) * Wb k c) + b1 c) + ∑ d : Fin 3, rel row Wn bn (off j d) * Wt d c

/-- The two upper layers over a first-layer vector `l1`: output unit `c`. -/
def top (l1 : Fin 256 → EReal) (c : Fin 32) : EReal :=
  max ((∑ k : Fin 128, max ((∑ k' : Fin 256, max (l1 k') z * W2 k' k) + b2 k) z * W3 k c) + b3 c) z

/-- Output unit `c` of neighbour `j` of a point. -/
def fc3 (j : Fin 16) (c : Fin 32) : EReal := top W2 b2 W3 b3 (lin1 row Wn bn Wt Wb b1 j) c

/-- Coordinate `d` of neighbour `j`'s position: the point plus a quarter of the decoded offset. -/
def opt (j : Fin 16) (d : Fin 3) : EReal := pt d + rel row Wn bn (off j d) * quarter
end

/-! ## The two float results as whole arrays of the argument arrays

Result row `r` (of 800000) is neighbour `r % 16` of point `r / 16`. -/

abbrev A2 (a b : Nat) : Type := (⟨2, ![a, b]⟩ : Shape).Idx → EReal
abbrev A1 (a : Nat) : Type := (⟨1, ![a]⟩ : Shape).Idx → EReal

/-- The point of result row `r`. -/
def pointOf (r : Nat) (h : r < 800000) : Fin 50000 := ⟨r / 16, by omega⟩
/-- The neighbour of result row `r`. -/
def nbOf (r : Nat) : Fin 16 := ⟨r % 16, Nat.mod_lt _ (by norm_num)⟩

/-- The perceptron's outputs: row `r`, unit `c`. -/
def G13 (a1 : A2 50000 160) (a3 : A2 32 48) (a4 : A1 48) (a5 : A2 131 256) (a6 : A1 256) (a7 : A2 256 128) (a8 : A1 128)
    (a9 : A2 128 32) (a10 : A1 32) : A2 800000 32 := fun r =>
  fc3 (fun k => a1 (ix2 (pointOf (r 0).val (idx2_lt0 r)) k)) (fun k q => a3 (ix2 k q)) (fun q => a4 (ix1 q))
    (fun d c => a5 (ix2 (w1top d) c)) (fun k c => a5 (ix2 (w1bot k) c)) (fun c => a6 (ix1 c))
    (fun k c => a7 (ix2 k c)) (fun c => a8 (ix1 c)) (fun k c => a9 (ix2 k c)) (fun c => a10 (ix1 c))
    (nbOf (r 0).val) ⟨(r 1).val, idx2_lt1 r⟩

/-- The neighbours' positions: row `r`, coordinate `d`. -/
def G31 (a0 : A2 50000 3) (a1 : A2 50000 160) (a3 : A2 32 48) (a4 : A1 48) : A2 800000 3 := fun r =>
  opt (fun k => a1 (ix2 (pointOf (r 0).val (idx2_lt0 r)) k)) (fun d => a0 (ix2 (pointOf (r 0).val (idx2_lt0 r)) d))
    (fun k q => a3 (ix2 k q)) (fun q => a4 (ix1 q)) (nbOf (r 0).val) ⟨(r 1).val, idx2_lt1 r⟩

/-! ## The same two results before the final re-layout: one row per point

Row `i` (of 50000) holds the point's 16 neighbours side by side: 16 × 3 coordinates, 16 × 32 units. -/

/-- Neighbour `q / 3`, coordinate `q % 3`. -/
def P48 (a0 : A2 50000 3) (a1 : A2 50000 160) (a3 : A2 32 48) (a4 : A1 48) : A2 50000 48 := fun i =>
  opt (fun k => a1 (ix2 ⟨(i 0).val, idx2_lt0 i⟩ k)) (fun d => a0 (ix2 ⟨(i 0).val, idx2_lt0 i⟩ d))
    (fun k q => a3 (ix2 k q)) (fun q => a4 (ix1 q))
    ⟨(i 1).val / 3, by have := idx2_lt1 i; omega⟩ ⟨(i 1).val % 3, Nat.mod_lt _ (by norm_num)⟩

/-- Neighbour `q / 32`, unit `q % 32`. -/
def P512 (a1 : A2 50000 160) (a3 : A2 32 48) (a4 : A1 48) (a5 : A2 131 256) (a6 : A1 256) (a7 : A2 256 128) (a8 : A1 128)
    (a9 : A2 128 32) (a10 : A1 32) : A2 50000 512 := fun i =>
  fc3 (fun k => a1 (ix2 ⟨(i 0).val, idx2_lt0 i⟩ k)) (fun k q => a3 (ix2 k q)) (fun q => a4 (ix1 q))
    (fun d c => a5 (ix2 (w1top d) c)) (fun k c => a5 (ix2 (w1bot k) c)) (fun c => a6 (ix1 c))
    (fun k c => a7 (ix2 k c)) (fun c => a8 (ix1 c)) (fun k c => a9 (ix2 k c)) (fun c => a10 (ix1 c))
    ⟨(i 1).val / 32, by have := idx2_lt1 i; omega⟩ ⟨(i 1).val % 32, Nat.mod_lt _ (by norm_num)⟩

end Cert.Mlp

end
-- ==== Proof.RefValue.lean ====
/-
  The reference program's two float results, read as whole arrays of its arguments.

  Result row `r` (of 800000) is neighbour `r % 16` of point `r / 16`. The reference flattens the decoded offsets
  [50000, 48] to [800000, 3] (flat position `3 r + d` is row `r / 16`, column `3 (r % 16) + d`), repeats every
  point's 128 shared features 16 times (flat position `128 r + k` belongs to point `r / 16`, feature `k`), joins the
  two along the columns into a 131-wide row, and runs three layers of "product-sum, plus bias, max with zero" on it.
  Read at an index, every operation is one element of its operands, a product-sum is a finite sum, and the only
  algebra is in the first layer: its sum over the 131 joined columns is the sum over the 3 offset columns plus the sum
  over the 128 shared-feature columns, and `(A + B) + c = (B + c) + A` in a commutative monoid puts the three parts
  in the order the shared specification writes them.
-/
import proofs.«135425_j45389214384421_2_alg».proof.Proof.Gen.ReferenceIdeal.Read
import proofs.«135425_j45389214384421_2_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.Mlp

variable (x0 : (⟨S50000x3, .f32⟩ : BufTy).Contents (Elt Ideal)) (x1 : (⟨S50000x160, .f32⟩ : BufTy).Contents (Elt Ideal))
  (x3 : (⟨S32x48, .f32⟩ : BufTy).Contents (Elt Ideal)) (x4 : (⟨S48, .f32⟩ : BufTy).Contents (Elt Ideal))
  (x5 : (⟨S131x256, .f32⟩ : BufTy).Contents (Elt Ideal)) (x6 : (⟨S256, .f32⟩ : BufTy).Contents (Elt Ideal))
  (x7 : (⟨S256x128, .f32⟩ : BufTy).Contents (Elt Ideal)) (x8 : (⟨S128, .f32⟩ : BufTy).Contents (Elt Ideal))
  (x9 : (⟨S128x32, .f32⟩ : BufTy).Contents (Elt Ideal)) (x10 : (⟨S32, .f32⟩ : BufTy).Contents (Elt Ideal))

/-! ## Pure algebra: the 131-term sum splits into its first 3 and last 128 terms -/

/-- A sum over the 131 rows of the first layer's weight is the sum over the three offset rows plus the sum over the
    128 shared-feature rows. -/
theorem sum131 {M : Type} [AddCommMonoid M] (f : Fin 131 → M) :
    ∑ k : Fin 131, f k = (∑ d : Fin 3, f (w1top d)) + ∑ k : Fin 128, f (w1bot k) :=
  Fin.sum_univ_add (a := 3) (b := 128) f

/-! ## The decoded offsets -/

/-- The decoder's product-sum plus bias at point `p`, offset `q`. -/
theorem v5_at (p : Fin 50000) (q : Fin 48) :
    val_main_v5 (F := Ideal) x1 x3 x4 (ix2 p q) =
      rel (fun k => x1 (ix2 p k)) (fun k q' => x3 (ix2 k q')) (fun q' => x4 (ix1 q')) q := by
  have e1 : ∀ k : Fin 32, idx_main_v0 (lidx_main_v2 (ix2 p q) k) = ix2 p (colP k) := fun k =>
    funext fun a => match a with | ⟨0, _⟩ => rfl | ⟨1, _⟩ => rfl
  have e2 : ∀ k : Fin 32, ridx_main_v2 (ix2 p q) k = ix2 k q := fun k =>
    funext fun a => match a with | ⟨0, _⟩ => rfl | ⟨1, _⟩ => rfl
  have e3 : idx_main_v3 (idx_main_v4 (ix2 p q)) = ix1 q :=
    funext fun a => match a with | ⟨0, _⟩ => rfl
  rw [val_main_v5_apply, val_main_v2_apply, val_main_v4_apply, val_main_v3_apply, e3]
  simp only [val_main_v0_apply, e1, e2]
  rfl

/-- Row `r` of the re-laid-out offsets is neighbour `r % 16` of point `r / 16`: coordinate `d` sits at flat
    position `3 r + d`, that is row `r / 16`, column `3 (r % 16) + d` of the 48-wide array. -/
theorem v6_at (r : Fin 800000) (d : Fin 3) :
    val_main_v6 (F := Ideal) x1 x3 x4 (ix2 r d) =
      rel (fun k => x1 (ix2 (pointOf r.val r.isLt) k)) (fun k q' => x3 (ix2 k q')) (fun q' => x4 (ix1 q')) (off (nbOf r.val) d) := by
  have e : idx_main_v6 (ix2 r d) = ix2 (pointOf r.val r.isLt) (off (nbOf r.val) d) :=
    funext fun a => match a with
      | ⟨0, _⟩ => Fin.ext (by show (r.val * 3 + d.val) / 48 = r.val / 16; have := d.isLt; omega)
      | ⟨1, _⟩ => Fin.ext (by show (r.val * 3 + d.val) % 48 = 3 * (r.val % 16) + d.val; have := d.isLt; omega)
  rw [val_main_v6_apply, e, v5_at]

/-- Row `r` of the repeated shared features is the shared-feature part of point `r / 16`'s row. -/
theorem v10_at (r : Fin 800000) (k : Fin 128) :
    val_main_v10 (F := Ideal) x1 (ix2 r k) = x1 (ix2 (pointOf r.val r.isLt) (colF k)) := by
  have e : idx_main_v1 (idx_main_v9 (idx_main_v10 (ix2 r k))) = ix2 (pointOf r.val r.isLt) (colF k) :=
    funext fun a => match a with
      | ⟨0, _⟩ => Fin.ext (by show (r.val * 128 + k.val) / 2048 = r.val / 16; have := k.isLt; omega)
      | ⟨1, _⟩ => Fin.ext (by show 32 + (r.val * 128 + k.val) % 128 = 32 + k.val; have := k.isLt; omega)
  rw [val_main_v10_apply, val_main_v9_apply, val_main_v1_apply, e]

/-! ## The joined first-layer input: columns 0–2 are the offsets, columns 3–130 the shared features -/

theorem v11_top (r : Fin 800000) (d : Fin 3) :
    val_main_v11 (F := Ideal) x1 x3 x4 (ix2 r (w1top d)) = val_main_v6 (F := Ideal) x1 x3 x4 (ix2 r d) := by
  unfold val_main_v11
  generalize val_main_v6 (F := Ideal) x1 x3 x4 = y6
  generalize val_main_v10 (F := Ideal) x1 = y10
  exact concatenate_pair_apply_left (t := S800000x131) 1 y6 y10 concatenates_S800000x3_S800000x128_S800000x131_d1
    (ix2 r (w1top d)) rfl (ix2 r d) (fun b => match b with | ⟨0, _⟩ => rfl | ⟨1, _⟩ => rfl)

theorem v11_bot (r : Fin 800000) (k : Fin 128) :
    val_main_v11 (F := Ideal) x1 x3 x4 (ix2 r (w1bot k)) = val_main_v10 (F := Ideal) x1 (ix2 r k) := by
  unfold val_main_v11
  generalize val_main_v6 (F := Ideal) x1 x3 x4 = y6
  generalize val_main_v10 (F := Ideal) x1 = y10
  exact concatenate_pair_apply_right (t := S800000x131) 1 y6 y10 concatenates_S800000x3_S800000x128_S800000x131_d1
    (ix2 r (w1bot k)) rfl rfl (ix2 r k)
    (fun b => match b with | ⟨0, _⟩ => fun _ => rfl | ⟨1, _⟩ => fun h => absurd (Fin.ext rfl) h)
    (by show k.val + 3 = 3 + k.val; omega)

/-! ## The first layer: the 131-term sum, split and reordered, is Spec's `lin1` -/

theorem v15_at (r : Fin 800000) (c : Fin 256) :
    val_main_v15 (F := Ideal) x1 x3 x4 x5 x6 (ix2 r c) =
      lin1 (fun k => x1 (ix2 (pointOf r.val r.isLt) k)) (fun k q' => x3 (ix2 k q')) (fun q' => x4 (ix1 q'))
        (fun d c' => x5 (ix2 (w1top d) c')) (fun k c' => x5 (ix2 (w1bot k) c')) (fun c' => x6 (ix1 c')) (nbOf r.val) c := by
  have el : ∀ k : Fin 131, lidx_main_v12 (ix2 r c) k = ix2 r k := fun k =>
    funext fun a => match a with | ⟨0, _⟩ => rfl | ⟨1, _⟩ => rfl
  have er : ∀ k : Fin 131, ridx_main_v12 (ix2 r c) k = ix2 k c := fun k =>
    funext fun a => match a with | ⟨0, _⟩ => rfl | ⟨1, _⟩ => rfl
  have eb : idx_main_v13 (idx_main_v14 (ix2 r c)) = ix1 c :=
    funext fun a => match a with | ⟨0, _⟩ => rfl
  rw [val_main_v15_apply, val_main_v12_apply, val_main_v14_apply, val_main_v13_apply, eb]
  simp only [el, er]
  rw [sum131]
  simp only [v11_top, v11_bot, v6_at, v10_at]
  exact add_rotate _ _ _

/-- The first `max · 0`. -/
theorem v16_at (r : Fin 800000) (c : Fin 256) :
    val_main_v16 (F := Ideal) x1 x3 x4 x5 x6 (ix2 r c) =
      max (lin1 (fun k => x1 (ix2 (pointOf r.val r.isLt) k)) (fun k q' => x3 (ix2 k q')) (fun q' => x4 (ix1 q'))
        (fun d c' => x5 (ix2 (w1top d) c')) (fun k c' => x5 (ix2 (w1bot k) c')) (fun c' => x6 (ix1 c')) (nbOf r.val) c) z := by
  rw [val_main_v16_apply, val_main_call0_v0_apply, val_main_call0_cst_apply, v15_at]
  rfl

/-! ## The two upper layers -/

theorem v21_at (r : Fin 800000) (c : Fin 128) :
    val_main_v21 (F := Ideal) x1 x3 x4 x5 x6 x7 x8 (ix2 r c) =
      max ((∑ k' : Fin 256, max (lin1 (fun k => x1 (ix2 (pointOf r.val r.isLt) k)) (fun k q' => x3 (ix2 k q')) (fun q' => x4 (ix1 q'))
        (fun d c' => x5 (ix2 (w1top d) c')) (fun k c' => x5 (ix2 (w1bot k) c')) (fun c' => x6 (ix1 c')) (nbOf r.val) k') z * x7 (ix2 k' c)) + x8 (ix1 c)) z := by
  have el : ∀ k : Fin 256, lidx_main_v17 (ix2 r c) k = ix2 r k := fun k =>
    funext fun a => match a with | ⟨0, _⟩ => rfl | ⟨1, _⟩ => rfl
  have er : ∀ k : Fin 256, ridx_main_v17 (ix2 r c) k = ix2 k c := fun k =>
    funext fun a => match a with | ⟨0, _⟩ => rfl | ⟨1, _⟩ => rfl
  have eb : idx_main_v18 (idx_main_v19 (ix2 r c)) = ix1 c :=
    funext fun a => match a with | ⟨0, _⟩ => rfl
  rw [val_main_v21_apply, val_main_call1_v0_apply, val_main_call1_cst_apply, val_main_v20_apply, val_main_v17_apply,
    val_main_v19_apply, val_main_v18_apply, eb]
  simp only [el, er, v16_at]
  rfl

theorem v26_at (r : Fin 800000) (c : Fin 32) :
    val_main_v26 (F := Ideal) x1 x3 x4 x5 x6 x7 x8 x9 x10 (ix2 r c) =
      fc3 (fun k => x1 (ix2 (pointOf r.val r.isLt) k)) (fun k q' => x3 (ix2 k q')) (fun q' => x4 (ix1 q'))
        (fun d c' => x5 (ix2 (w1top d) c')) (fun k c' => x5 (ix2 (w1bot k) c')) (fun c' => x6 (ix1 c'))
        (fun k c' => x7 (ix2 k c')) (fun c' => x8 (ix1 c')) (fun k c' => x9 (ix2 k c')) (fun c' => x10 (ix1 c'))
        (nbOf r.val) c := by
  have el : ∀ k : Fin 128, lidx_main_v22 (ix2 r c) k = ix2 r k := fun k =>
    funext fun a => match a with | ⟨0, _⟩ => rfl | ⟨1, _⟩ => rfl
  have er : ∀ k : Fin 128, ridx_main_v22 (ix2 r c) k = ix2 k c := fun k =>
    funext fun a => match a with | ⟨0, _⟩ => rfl | ⟨1, _⟩ => rfl
  have eb : idx_main_v23 (idx_main_v24 (ix2 r c)) = ix1 c :=
    funext fun a => match a with | ⟨0, _⟩ => rfl
  rw [val_main_v26_apply, val_main_call2_v0_apply, val_main_call2_cst_apply, val_main_v25_apply, val_main_v22_apply,
    val_main_v24_apply, val_main_v23_apply, eb]
  simp only [el, er, v21_at]
  rfl

/-- The reference's perceptron outputs are Spec's `G13` of the argument arrays. -/
theorem ref_fc3 :
    Cert.ReferenceIdeal.Read.val_main_v26 (F := Ideal) x1 x3 x4 x5 x6 x7 x8 x9 x10 = Cert.Mlp.G13 x1 x3 x4 x5 x6 x7 x8 x9 x10 := by
  funext r
  obtain ⟨r0, c, rfl⟩ : ∃ (r0 : Fin 800000) (c : Fin 32), r = ix2 r0 c := ⟨r 0, r 1, eq_ix2 r⟩
  exact v26_at x1 x3 x4 x5 x6 x7 x8 x9 x10 r0 c

/-! ## The neighbours' positions -/

theorem v31_at (r : Fin 800000) (d : Fin 3) :
    val_main_v31 (F := Ideal) x0 x1 x3 x4 (ix2 r d) =
      opt (fun k => x1 (ix2 (pointOf r.val r.isLt) k)) (fun d' => x0 (ix2 (pointOf r.val r.isLt) d')) (fun k q' => x3 (ix2 k q')) (fun q' => x4 (ix1 q')) (nbOf r.val) d := by
  have e : idx_main_v27 (idx_main_v28 (ix2 r d)) = ix2 (pointOf r.val r.isLt) d :=
    funext fun a => match a with
      | ⟨0, _⟩ => Fin.ext (by show (r.val * 3 + d.val) / 48 = r.val / 16; have := d.isLt; omega)
      | ⟨1, _⟩ => Fin.ext (by show (r.val * 3 + d.val) % 3 = d.val; have := d.isLt; omega)
  rw [val_main_v31_apply, val_main_v28_apply, val_main_v27_apply, e, val_main_v30_apply, val_main_v29_apply,
    val_main_cst_apply, v6_at]
  rfl

/-- The reference's neighbour positions are Spec's `G31` of the argument arrays. -/
theorem ref_pts :
    Cert.ReferenceIdeal.Read.val_main_v31 (F := Ideal) x0 x1 x3 x4 = Cert.Mlp.G31 x0 x1 x3 x4 := by
  funext r
  obtain ⟨r0, d, rfl⟩ : ∃ (r0 : Fin 800000) (d : Fin 3), r = ix2 r0 d := ⟨r 0, r 1, eq_ix2 r⟩
  exact v31_at x0 x1 x3 x4 r0 d

end Cert.ReferenceIdeal.RefValue

end
-- ==== Proof.KMat.lean ====
/-
  The five matrix products of the kernel's body, each read at one entry of its result: with a zero accumulator the
  entry (p, q) is the plain sum over the contracted axis of left (p, k) times right (k, q). On the extended reals a
  product into a zero accumulator has no rounding and no order, so this sum is all there is to it.
-/
import proofs.«135425_j45389214384421_2_alg».proof.Proof.Gen.KernelIdeal
import Idealize.ShloMosaic.Lib.ValueIdx
import Idealize.ShloMosaic.PureOps.Ideal.Laws

noncomputable section

namespace Cert.KernelIdeal.KMat

open Idealize.ShloMosaic Idealize.ShloMosaic.ValueIdx Cert.KernelIdeal Cert.KernelIdeal.Gen

/-- The left operand's row coordinate at a result entry is the entry's row. -/
theorem lhs0_rel (i : S1000x48.Idx) (q : dot_S1000x32_S32x48_S1000x48_1_0_0_1_n_n.contr.Idx) : (dot_S1000x32_S32x48_S1000x48_1_0_0_1_n_n.lhsIdx i q 0).val = (i 0).val := by
  unfold DotDims.lhsIdx
  rw [dif_neg (show ¬(0 : Fin S1000x32.rank) ∈ dot_S1000x32_S32x48_S1000x48_1_0_0_1_n_n.lhsBatch by decide), dif_pos (show (0 : Fin S1000x32.rank) ∈ dot_S1000x32_S32x48_S1000x48_1_0_0_1_n_n.lhsNonContracting by decide)]
  rfl
/-- The right operand's column coordinate at a result entry is the entry's column. -/
theorem rhs1_rel (i : S1000x48.Idx) (q : dot_S1000x32_S32x48_S1000x48_1_0_0_1_n_n.contr.Idx) : (dot_S1000x32_S32x48_S1000x48_1_0_0_1_n_n.rhsIdx i q 1).val = (i 1).val := by
  unfold DotDims.rhsIdx
  rw [dif_neg (show ¬(1 : Fin S32x48.rank) ∈ dot_S1000x32_S32x48_S1000x48_1_0_0_1_n_n.rhsBatch by decide), dif_pos (show (1 : Fin S32x48.rank) ∈ dot_S1000x32_S32x48_S1000x48_1_0_0_1_n_n.rhsNonContracting by decide)]
  rfl
/-- Entry (p, q) of a [1000, 32] by [32, 48] product into zeros: the sum over the 32 contracted positions. -/
theorem mm_rel {φ₁ φ₂ : FTy} (lhs : FVec Ideal S1000x32 φ₁) (rhs : FVec Ideal S32x48 φ₂) (p : Fin 1000) (q : Fin 48) :
    matmul dot_S1000x32_S32x48_S1000x48_1_0_0_1_n_n none lhs rhs (constant S1000x48 .f32 0x00000000#32) (ix2 p q)
      = ∑ k : Fin 32, lhs (ix2 p k) * rhs (ix2 k q) := by
  refine (Ideal.matmul_constant_zero_apply dot_S1000x32_S32x48_S1000x48_1_0_0_1_n_n none lhs rhs (ix2 p q)).trans ?_
  rw [← Equiv.sum_comp (contrEquiv1 dot_S1000x32_S32x48_S1000x48_1_0_0_1_n_n 32 rfl rfl).symm]
  refine Finset.sum_congr rfl fun k _ => ?_
  have hk := contrEquiv1_symm_val dot_S1000x32_S32x48_S1000x48_1_0_0_1_n_n 32 rfl rfl k
  have el : dot_S1000x32_S32x48_S1000x48_1_0_0_1_n_n.lhsIdx (ix2 p q) ((contrEquiv1 dot_S1000x32_S32x48_S1000x48_1_0_0_1_n_n 32 rfl rfl).symm k) = ix2 p k := funext fun a => Fin.ext (by
    match a with
    | ⟨0, _⟩ => exact lhs0_rel _ _
    | ⟨1, _⟩ => exact (dot_S1000x32_S32x48_S1000x48_1_0_0_1_n_n.lhsIdx_val_of_single rfl _ _).trans hk)
  have er : dot_S1000x32_S32x48_S1000x48_1_0_0_1_n_n.rhsIdx (ix2 p q) ((contrEquiv1 dot_S1000x32_S32x48_S1000x48_1_0_0_1_n_n 32 rfl rfl).symm k) = ix2 k q := funext fun a => Fin.ext (by
    match a with
    | ⟨0, _⟩ => exact (dot_S1000x32_S32x48_S1000x48_1_0_0_1_n_n.rhsIdx_val_of_single rfl _ _).trans hk
    | ⟨1, _⟩ => exact rhs1_rel _ _)
  rw [el, er]

/-- The left operand's row coordinate at a result entry is the entry's row. -/
theorem lhs0_common (i : S1000x256.Idx) (q : dot_S1000x128_S128x256_S1000x256_1_0_0_1_n_n.contr.Idx) : (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
/-- The right operand's column coordinate at a result entry is the entry's column. -/
theorem rhs1_common (i : S1000x256.Idx) (q : dot_S1000x128_S128x256_S1000x256_1_0_0_1_n_n.contr.Idx) : (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl
/-- Entry (p, q) of a [1000, 128] by [128, 256] product into zeros: the sum over the 128 contracted positions. -/
theorem mm_common {φ₁ φ₂ : FTy} (lhs : FVec Ideal S1000x128 φ₁) (rhs : FVec Ideal S128x256 φ₂) (p : Fin 1000) (q : Fin 256) :
    matmul dot_S1000x128_S128x256_S1000x256_1_0_0_1_n_n none lhs rhs (constant S1000x256 .f32 0x00000000#32) (ix2 p q)
      = ∑ k : Fin 128, lhs (ix2 p k) * rhs (ix2 k q) := by
  refine (Ideal.matmul_constant_zero_apply dot_S1000x128_S128x256_S1000x256_1_0_0_1_n_n none lhs rhs (ix2 p q)).trans ?_
  rw [← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 p q) ((contrEquiv1 dot_S1000x128_S128x256_S1000x256_1_0_0_1_n_n 128 rfl rfl).symm k) = ix2 p k := funext fun a => Fin.ext (by
    match a with
    | ⟨0, _⟩ => exact lhs0_common _ _
    | ⟨1, _⟩ => exact (dot_S1000x128_S128x256_S1000x256_1_0_0_1_n_n.lhsIdx_val_of_single rfl _ _).trans hk)
  have er : dot_S1000x128_S128x256_S1000x256_1_0_0_1_n_n.rhsIdx (ix2 p q) ((contrEquiv1 dot_S1000x128_S128x256_S1000x256_1_0_0_1_n_n 128 rfl rfl).symm k) = ix2 k q := funext fun a => Fin.ext (by
    match a with
    | ⟨0, _⟩ => exact (dot_S1000x128_S128x256_S1000x256_1_0_0_1_n_n.rhsIdx_val_of_single rfl _ _).trans hk
    | ⟨1, _⟩ => exact rhs1_common _ _)
  rw [el, er]

/-- The left operand's row coordinate at a result entry is the entry's row. -/
theorem lhs0_top1 (i : S1000x256.Idx) (q : dot_S1000x3_S3x256_S1000x256_1_0_0_1_n_n.contr.Idx) : (dot_S1000x3_S3x256_S1000x256_1_0_0_1_n_n.lhsIdx i q 0).val = (i 0).val := by
  unfold DotDims.lhsIdx
  rw [dif_neg (show ¬(0 : Fin S1000x3.rank) ∈ dot_S1000x3_S3x256_S1000x256_1_0_0_1_n_n.lhsBatch by decide), dif_pos (show (0 : Fin S1000x3.rank) ∈ dot_S1000x3_S3x256_S1000x256_1_0_0_1_n_n.lhsNonContracting by decide)]
  rfl
/-- The right operand's column coordinate at a result entry is the entry's column. -/
theorem rhs1_top1 (i : S1000x256.Idx) (q : dot_S1000x3_S3x256_S1000x256_1_0_0_1_n_n.contr.Idx) : (dot_S1000x3_S3x256_S1000x256_1_0_0_1_n_n.rhsIdx i q 1).val = (i 1).val := by
  unfold DotDims.rhsIdx
  rw [dif_neg (show ¬(1 : Fin S3x256.rank) ∈ dot_S1000x3_S3x256_S1000x256_1_0_0_1_n_n.rhsBatch by decide), dif_pos (show (1 : Fin S3x256.rank) ∈ dot_S1000x3_S3x256_S1000x256_1_0_0_1_n_n.rhsNonContracting by decide)]
  rfl
/-- Entry (p, q) of a [1000, 3] by [3, 256] product into zeros: the sum over the 3 contracted positions. -/
theorem mm_top1 {φ₁ φ₂ : FTy} (lhs : FVec Ideal S1000x3 φ₁) (rhs : FVec Ideal S3x256 φ₂) (p : Fin 1000) (q : Fin 256) :
    matmul dot_S1000x3_S3x256_S1000x256_1_0_0_1_n_n none lhs rhs (constant S1000x256 .f32 0x00000000#32) (ix2 p q)
      = ∑ k : Fin 3, lhs (ix2 p k) * rhs (ix2 k q) := by
  refine (Ideal.matmul_constant_zero_apply dot_S1000x3_S3x256_S1000x256_1_0_0_1_n_n none lhs rhs (ix2 p q)).trans ?_
  rw [← Equiv.sum_comp (contrEquiv1 dot_S1000x3_S3x256_S1000x256_1_0_0_1_n_n 3 rfl rfl).symm]
  refine Finset.sum_congr rfl fun k _ => ?_
  have hk := contrEquiv1_symm_val dot_S1000x3_S3x256_S1000x256_1_0_0_1_n_n 3 rfl rfl k
  have el : dot_S1000x3_S3x256_S1000x256_1_0_0_1_n_n.lhsIdx (ix2 p q) ((contrEquiv1 dot_S1000x3_S3x256_S1000x256_1_0_0_1_n_n 3 rfl rfl).symm k) = ix2 p k := funext fun a => Fin.ext (by
    match a with
    | ⟨0, _⟩ => exact lhs0_top1 _ _
    | ⟨1, _⟩ => exact (dot_S1000x3_S3x256_S1000x256_1_0_0_1_n_n.lhsIdx_val_of_single rfl _ _).trans hk)
  have er : dot_S1000x3_S3x256_S1000x256_1_0_0_1_n_n.rhsIdx (ix2 p q) ((contrEquiv1 dot_S1000x3_S3x256_S1000x256_1_0_0_1_n_n 3 rfl rfl).symm k) = ix2 k q := funext fun a => Fin.ext (by
    match a with
    | ⟨0, _⟩ => exact (dot_S1000x3_S3x256_S1000x256_1_0_0_1_n_n.rhsIdx_val_of_single rfl _ _).trans hk
    | ⟨1, _⟩ => exact rhs1_top1 _ _)
  rw [el, er]

/-- The left operand's row coordinate at a result entry is the entry's row. -/
theorem lhs0_layer2 (i : S1000x128.Idx) (q : dot_S1000x256_S256x128_S1000x128_1_0_0_1_n_n.contr.Idx) : (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
/-- The right operand's column coordinate at a result entry is the entry's column. -/
theorem rhs1_layer2 (i : S1000x128.Idx) (q : dot_S1000x256_S256x128_S1000x128_1_0_0_1_n_n.contr.Idx) : (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl
/-- Entry (p, q) of a [1000, 256] by [256, 128] product into zeros: the sum over the 256 contracted positions. -/
theorem mm_layer2 {φ₁ φ₂ : FTy} (lhs : FVec Ideal S1000x256 φ₁) (rhs : FVec Ideal S256x128 φ₂) (p : Fin 1000) (q : Fin 128) :
    matmul dot_S1000x256_S256x128_S1000x128_1_0_0_1_n_n none lhs rhs (constant S1000x128 .f32 0x00000000#32) (ix2 p q)
      = ∑ k : Fin 256, lhs (ix2 p k) * rhs (ix2 k q) := by
  refine (Ideal.matmul_constant_zero_apply dot_S1000x256_S256x128_S1000x128_1_0_0_1_n_n none lhs rhs (ix2 p q)).trans ?_
  rw [← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p q) ((contrEquiv1 dot_S1000x256_S256x128_S1000x128_1_0_0_1_n_n 256 rfl rfl).symm k) = ix2 p k := funext fun a => Fin.ext (by
    match a with
    | ⟨0, _⟩ => exact lhs0_layer2 _ _
    | ⟨1, _⟩ => exact (dot_S1000x256_S256x128_S1000x128_1_0_0_1_n_n.lhsIdx_val_of_single rfl _ _).trans hk)
  have er : dot_S1000x256_S256x128_S1000x128_1_0_0_1_n_n.rhsIdx (ix2 p q) ((contrEquiv1 dot_S1000x256_S256x128_S1000x128_1_0_0_1_n_n 256 rfl rfl).symm k) = ix2 k q := funext fun a => Fin.ext (by
    match a with
    | ⟨0, _⟩ => exact (dot_S1000x256_S256x128_S1000x128_1_0_0_1_n_n.rhsIdx_val_of_single rfl _ _).trans hk
    | ⟨1, _⟩ => exact rhs1_layer2 _ _)
  rw [el, er]

/-- The left operand's row coordinate at a result entry is the entry's row. -/
theorem lhs0_layer3 (i : S1000x32.Idx) (q : dot_S1000x128_S128x32_S1000x32_1_0_0_1_n_n.contr.Idx) : (dot_S1000x128_S128x32_S1000x32_1_0_0_1_n_n.lhsIdx i q 0).val = (i 0).val := by
  unfold DotDims.lhsIdx
  rw [dif_neg (show ¬(0 : Fin S1000x128.rank) ∈ dot_S1000x128_S128x32_S1000x32_1_0_0_1_n_n.lhsBatch by decide), dif_pos (show (0 : Fin S1000x128.rank) ∈ dot_S1000x128_S128x32_S1000x32_1_0_0_1_n_n.lhsNonContracting by decide)]
  rfl
/-- The right operand's column coordinate at a result entry is the entry's column. -/
theorem rhs1_layer3 (i : S1000x32.Idx) (q : dot_S1000x128_S128x32_S1000x32_1_0_0_1_n_n.contr.Idx) : (dot_S1000x128_S128x32_S1000x32_1_0_0_1_n_n.rhsIdx i q 1).val = (i 1).val := by
  unfold DotDims.rhsIdx
  rw [dif_neg (show ¬(1 : Fin S128x32.rank) ∈ dot_S1000x128_S128x32_S1000x32_1_0_0_1_n_n.rhsBatch by decide), dif_pos (show (1 : Fin S128x32.rank) ∈ dot_S1000x128_S128x32_S1000x32_1_0_0_1_n_n.rhsNonContracting by decide)]
  rfl
/-- Entry (p, q) of a [1000, 128] by [128, 32] product into zeros: the sum over the 128 contracted positions. -/
theorem mm_layer3 {φ₁ φ₂ : FTy} (lhs : FVec Ideal S1000x128 φ₁) (rhs : FVec Ideal S128x32 φ₂) (p : Fin 1000) (q : Fin 32) :
    matmul dot_S1000x128_S128x32_S1000x32_1_0_0_1_n_n none lhs rhs (constant S1000x32 .f32 0x00000000#32) (ix2 p q)
      = ∑ k : Fin 128, lhs (ix2 p k) * rhs (ix2 k q) := by
  refine (Ideal.matmul_constant_zero_apply dot_S1000x128_S128x32_S1000x32_1_0_0_1_n_n none lhs rhs (ix2 p q)).trans ?_
  rw [← Equiv.sum_comp (contrEquiv1 dot_S1000x128_S128x32_S1000x32_1_0_0_1_n_n 128 rfl rfl).symm]
  refine Finset.sum_congr rfl fun k _ => ?_
  have hk := contrEquiv1_symm_val dot_S1000x128_S128x32_S1000x32_1_0_0_1_n_n 128 rfl rfl k
  have el : dot_S1000x128_S128x32_S1000x32_1_0_0_1_n_n.lhsIdx (ix2 p q) ((contrEquiv1 dot_S1000x128_S128x32_S1000x32_1_0_0_1_n_n 128 rfl rfl).symm k) = ix2 p k := funext fun a => Fin.ext (by
    match a with
    | ⟨0, _⟩ => exact lhs0_layer3 _ _
    | ⟨1, _⟩ => exact (dot_S1000x128_S128x32_S1000x32_1_0_0_1_n_n.lhsIdx_val_of_single rfl _ _).trans hk)
  have er : dot_S1000x128_S128x32_S1000x32_1_0_0_1_n_n.rhsIdx (ix2 p q) ((contrEquiv1 dot_S1000x128_S128x32_S1000x32_1_0_0_1_n_n 128 rfl rfl).symm k) = ix2 k q := funext fun a => Fin.ext (by
    match a with
    | ⟨0, _⟩ => exact (dot_S1000x128_S128x32_S1000x32_1_0_0_1_n_n.rhsIdx_val_of_single rfl _ _).trans hk
    | ⟨1, _⟩ => exact rhs1_layer3 _ _)
  rw [el, er]

end Cert.KernelIdeal.KMat

end
-- ==== Proof.KNb.lean ====
/-
  One neighbour's perceptron inside the kernel's body, as whole-block vector operations and then entry by entry.

  The body holds, per block of 1000 points, the decoded offsets `v11` ([1000, 48]) and the shared first-layer part
  `v19` ([1000, 256]: shared features times the lower 128 rows of the first weight, plus the bias). For the neighbour
  whose three offsets start at column `o` it adds the three-term product with the upper 3 rows of the first weight,
  and runs the two upper layers. Entry by entry every step is a plain sum, a sum with a bias, or a maximum with zero.
-/
import proofs.«135425_j45389214384421_2_alg».proof.Proof.KMat
import proofs.«135425_j45389214384421_2_alg».proof.Proof.Spec
import Idealize.ShloMosaic.Lib.Pipeline.Value
import Idealize.ShloMosaic.Lib.ValueLayout

noncomputable section

namespace Cert.KernelIdeal.KNb

open Idealize.ShloMosaic Idealize.ShloMosaic.ValueIdx Cert.KernelIdeal Cert.KernelIdeal.Gen

section Defs
variable {F : FTy → Type} [FloatOps F]

/-- First layer of the neighbour whose offsets sit at columns `o, o+1, o+2`: the shared part plus the three offset terms. -/
def hid (o : Nat) (hs : S1000x48.Slices ![0, o] S1000x3) (v11 : FVec F S1000x48 .f32) (v19 : FVec F S1000x256 .f32)
    (v21 : FVec F S3x256 .bf16) : FVec F S1000x256 .f32 :=
  addf v19 (matmul dot_S1000x3_S3x256_S1000x256_1_0_0_1_n_n none
    (truncf .bf16 (extractStridedSlice S1000x3 ![0, o] v11 hs) bitsLt_bf16_f32) v21 (constant S1000x256 .f32 0x00000000#32))

/-- Second layer before its maximum with zero: the first layer clipped at zero, times the second weight, plus the bias. -/
def l2 (v23 : FVec F S256x128 .bf16) (v25 : FVec F S1x128 .f32) (h : FVec F S1000x256 .f32) : FVec F S1000x128 .f32 :=
  addf (matmul dot_S1000x256_S256x128_S1000x128_1_0_0_1_n_n none
      (truncf .bf16 (maximumf h (broadcast S1000x256 (Scalar.ofBits .f32 0x00000000#32))) bitsLt_bf16_f32) v23
      (constant S1000x128 .f32 0x00000000#32))
    (broadcastTo S1000x128 v25 broadcasts_S1x128_S1000x128)

/-- Third layer with its maximum with zero, from the second layer before ITS maximum. -/
def l3 (v27 : FVec F S128x32 .bf16) (v29 : FVec F S1x32 .f32) (g : FVec F S1000x128 .f32) : FVec F S1000x32 .f32 :=
  maximumf (addf (matmul dot_S1000x128_S128x32_S1000x32_1_0_0_1_n_n none
      (truncf .bf16 (maximumf g (broadcast S1000x128 (Scalar.ofBits .f32 0x00000000#32))) bitsLt_bf16_f32) v27
      (constant S1000x32 .f32 0x00000000#32))
    (broadcastTo S1000x32 v29 broadcasts_S1x32_S1000x32)) (broadcast S1000x32 (Scalar.ofBits .f32 0x00000000#32))

/-- The neighbour's 32 outputs for the 1000 points of the block. -/
def nb (o : Nat) (hs : S1000x48.Slices ![0, o] S1000x3) (v11 : FVec F S1000x48 .f32) (v19 : FVec F S1000x256 .f32)
    (v21 : FVec F S3x256 .bf16) (v23 : FVec F S256x128 .bf16) (v25 : FVec F S1x128 .f32) (v27 : FVec F S128x32 .bf16)
    (v29 : FVec F S1x32 .f32) : FVec F S1000x32 .f32 :=
  l3 v27 v29 (l2 v23 v25 (hid o hs v11 v19 v21))

end Defs

/-- The first layer at point `p`, unit `c`: the shared part plus the three offset coordinates against the upper rows. -/
theorem hid_apply (o : Nat) (hs : S1000x48.Slices ![0, o] S1000x3) (ho : o + 3 ≤ 48) (v11 : FVec Ideal S1000x48 .f32)
    (v19 : FVec Ideal S1000x256 .f32) (v21 : FVec Ideal S3x256 .bf16) (p : Fin 1000) (c : Fin 256) :
    hid o hs v11 v19 v21 (ix2 p c)
      = v19 (ix2 p c) + ∑ d : Fin 3, v11 (ix2 p (⟨o + d.val, by have := d.isLt; omega⟩ : Fin 48)) * v21 (ix2 d c) := by
  unfold hid
  refine congrArg (v19 (ix2 p c) + ·) ?_
  refine (KMat.mm_top1 _ v21 p c).trans ?_
  refine Finset.sum_congr rfl fun d _ => ?_
  refine congrArg (· * v21 (ix2 d c)) ?_
  show extractStridedSlice S1000x3 ![0, o] v11 hs (ix2 p d) = _
  exact extractStridedSlice_apply ![0, o] v11 hs (ix2 p d) (ix2 p (⟨o + d.val, by have := d.isLt; omega⟩ : Fin 48))
    (fun a => match a with
      | ⟨0, _⟩ => by show p.val = 0 + p.val; omega
      | ⟨1, _⟩ => rfl)

/-- The second layer before its maximum, at point `p`, unit `k`. -/
theorem l2_apply (v23 : FVec Ideal S256x128 .bf16) (v25 : FVec Ideal S1x128 .f32) (h : FVec Ideal S1000x256 .f32)
    (p : Fin 1000) (k : Fin 128) :
    l2 v23 v25 h (ix2 p k) = (∑ k' : Fin 256, max (h (ix2 p k')) Mlp.z * v23 (ix2 k' k)) + v25 (ix2 (0 : Fin 1) k) := by
  unfold l2
  show _ + _ = _
  rw [broadcastTo_1b_ab_apply v25 broadcasts_S1x128_S1000x128 p k]
  refine congrArg (· + v25 (ix2 (0 : Fin 1) k)) ?_
  exact KMat.mm_layer2 _ v23 p k

/-- The third layer at point `p`, unit `c`. -/
theorem l3_apply (v27 : FVec Ideal S128x32 .bf16) (v29 : FVec Ideal S1x32 .f32) (g : FVec Ideal S1000x128 .f32)
    (p : Fin 1000) (c : Fin 32) :
    l3 v27 v29 g (ix2 p c)
      = max ((∑ k : Fin 128, max (g (ix2 p k)) Mlp.z * v27 (ix2 k c)) + v29 (ix2 (0 : Fin 1) c)) Mlp.z := by
  unfold l3
  show max (_ + _) _ = _
  rw [broadcastTo_1b_ab_apply v29 broadcasts_S1x32_S1000x32 p c]
  refine congrArg (fun t => max (t + v29 (ix2 (0 : Fin 1) c)) Mlp.z) ?_
  exact KMat.mm_layer3 _ v27 p c

/-- The neighbour's output unit `c` at point `p` is the specification's upper layers over its first layer. -/
theorem nb_apply (o : Nat) (hs : S1000x48.Slices ![0, o] S1000x3) (ho : o + 3 ≤ 48) (v11 : FVec Ideal S1000x48 .f32)
    (v19 : FVec Ideal S1000x256 .f32) (v21 : FVec Ideal S3x256 .bf16) (v23 : FVec Ideal S256x128 .bf16)
    (v25 : FVec Ideal S1x128 .f32) (v27 : FVec Ideal S128x32 .bf16) (v29 : FVec Ideal S1x32 .f32) (p : Fin 1000) (c : Fin 32) :
    nb o hs v11 v19 v21 v23 v25 v27 v29 (ix2 p c)
      = Mlp.top (fun k' k => v23 (ix2 k' k)) (fun k => v25 (ix2 (0 : Fin 1) k)) (fun k c => v27 (ix2 k c))
          (fun c => v29 (ix2 (0 : Fin 1) c))
          (fun k' => v19 (ix2 p k') + ∑ d : Fin 3, v11 (ix2 p (⟨o + d.val, by have := d.isLt; omega⟩ : Fin 48)) * v21 (ix2 d k')) c := by
  unfold nb Mlp.top
  rw [l3_apply]
  simp only [l2_apply, hid_apply o hs ho]

end Cert.KernelIdeal.KNb

end
-- ==== Proof.KRel.lean ====
/-
  The two values the kernel's body computes once per block of 1000 points, read entry by entry.

  The decoded offsets: the first 32 columns of the block's feature rows times the decoder, plus its bias row. The
  shared part of the first layer: the other 128 columns times the lower 128 rows of the first weight, plus the first
  bias row. On the extended reals the narrowing of an operand before a product is the identity and a product into a
  zero accumulator is the plain sum over the contracted axis, so each entry is a finite sum plus one bias entry.
  The remaining operands are re-shaped to their own shape, which changes nothing.
-/
import proofs.«135425_j45389214384421_2_alg».proof.Proof.Gen.KernelIdeal.Skeleton
import proofs.«135425_j45389214384421_2_alg».proof.Proof.KMat
import proofs.«135425_j45389214384421_2_alg».proof.Proof.Spec
import Idealize.ShloMosaic.Lib.Pipeline.Value
import Idealize.ShloMosaic.Lib.ValueLayout

noncomputable section

namespace Cert.KernelIdeal.KRel

open Idealize.ShloMosaic Idealize.ShloMosaic.ValueIdx Cert.KernelIdeal Cert.KernelIdeal.Gen

/-- The decoded offset `q` of the block's point `p`. -/
theorem pay3_apply (v0 : Vec Ideal S1000x160 .f32) (v5 : Vec Ideal S32x48 .bf16) (v8 : Vec Ideal S1x48 .f32)
    (p : Fin 1000) (q : Fin 48) :
    Gen.k0_pay3 (F := Ideal) v0 v5 v8 (ix2 p q) =
      Mlp.rel (fun k => v0 (ix2 p k)) (fun k q' => v5 (ix2 k q')) (fun q' => v8 (ix2 (0 : Fin 1) q')) q := by
  unfold Gen.k0_pay3 Mlp.rel
  show _ + _ = _
  rw [shapeCast_self v5, shapeCast_self v8, broadcastTo_1b_ab_apply v8 broadcasts_S1x48_S1000x48 p q]
  refine congrArg (· + v8 (ix2 (0 : Fin 1) q)) ?_
  refine (KMat.mm_rel (φ₂ := .bf16) _ v5 p q).trans ?_
  refine Finset.sum_congr rfl fun k _ => ?_
  refine congrArg (· * v5 (ix2 k q)) ?_
  show extractStridedSlice S1000x32 ![0, 0] v0 slices_S1000x160_o0_0_S1000x32 (ix2 p k) = _
  exact extractStridedSlice_apply ![0, 0] v0 slices_S1000x160_o0_0_S1000x32 (ix2 p k) (ix2 p (Mlp.colP k))
    (fun a => match a with
      | ⟨0, _⟩ => by show p.val = 0 + p.val; omega
      | ⟨1, _⟩ => by show k.val = 0 + k.val; omega)

/-- The shared part of the first layer, unit `c`, of the block's point `p`. -/
theorem pay4_apply (v0 : Vec Ideal S1000x160 .f32) (v13 : Vec Ideal S128x256 .bf16) (v16 : Vec Ideal S1x256 .f32)
    (p : Fin 1000) (c : Fin 256) :
    Gen.k0_pay4 (F := Ideal) v0 v13 v16 (ix2 p c) =
      (∑ k : Fin 128, v0 (ix2 p (Mlp.colF k)) * v13 (ix2 k c)) + v16 (ix2 (0 : Fin 1) c) := by
  unfold Gen.k0_pay4
  show _ + _ = _
  rw [shapeCast_self v13, shapeCast_self v16, broadcastTo_1b_ab_apply v16 broadcasts_S1x256_S1000x256 p c]
  refine congrArg (· + v16 (ix2 (0 : Fin 1) c)) ?_
  refine (KMat.mm_common (φ₂ := .bf16) _ v13 p c).trans ?_
  refine Finset.sum_congr rfl fun k _ => ?_
  refine congrArg (· * v13 (ix2 k c)) ?_
  show extractStridedSlice S1000x128 ![0, 32] v0 slices_S1000x160_o0_32_S1000x128 (ix2 p k) = _
  exact extractStridedSlice_apply ![0, 32] v0 slices_S1000x160_o0_32_S1000x128 (ix2 p k) (ix2 p (Mlp.colF k))
    (fun a => match a with
      | ⟨0, _⟩ => by show p.val = 0 + p.val; omega
      | ⟨1, _⟩ => rfl)

/-- A re-shape to the same shape is the identity: the upper three rows of the first weight. -/
theorem pay5_eq (v : Vec Ideal S3x256 .bf16) : Gen.k0_pay5 (F := Ideal) v = v := shapeCast_self v _
/-- The second weight. -/
theorem pay6_eq (v : Vec Ideal S256x128 .bf16) : Gen.k0_pay6 (F := Ideal) v = v := shapeCast_self v _
/-- The second bias row. -/
theorem pay7_eq (v : Vec Ideal S1x128 .f32) : Gen.k0_pay7 (F := Ideal) v = v := shapeCast_self v _
/-- The third weight. -/
theorem pay8_eq (v : Vec Ideal S128x32 .bf16) : Gen.k0_pay8 (F := Ideal) v = v := shapeCast_self v _
/-- The third bias row. -/
theorem pay9_eq (v : Vec Ideal S1x32 .f32) : Gen.k0_pay9 (F := Ideal) v = v := shapeCast_self v _

end Cert.KernelIdeal.KRel

end
-- ==== Proof.KPts.lean ====
/-
  The neighbours' positions as the kernel's body leaves them for one block of 1000 points.

  The body joins sixteen copies of the block's points ([1000, 3]) side by side into a [1000, 48] array, so column `q`
  of the join holds coordinate `q % 3` of the point; to that it adds a quarter of the decoded offsets. Column `q` is
  coordinate `q % 3` of neighbour `q / 3`, and `3 (q / 3) + q % 3 = q`, so the entry is the specification's position.
-/
import proofs.«135425_j45389214384421_2_alg».proof.Proof.Gen.KernelIdeal.Frame
import proofs.«135425_j45389214384421_2_alg».proof.Proof.KRel
import proofs.«135425_j45389214384421_2_alg».proof.Proof.Spec
import Idealize.ShloMosaic.Lib.Pipeline.Value

noncomputable section

namespace Cert.KernelIdeal.KPts

open Idealize.ShloMosaic Idealize.ShloMosaic.ValueIdx Cert.KernelIdeal Cert.KernelIdeal.Gen

/-- The sum the body stores, at point `p`, column `q`: the point's coordinate `q % 3` plus a quarter of offset `q`. -/
theorem pay2_apply (v3 : Vec Ideal S1000x3 .f32) (v11 : FVec Ideal S1000x48 .f32) (p : Fin 1000) (q : Fin 48) :
    Gen.k0_pay2 (F := Ideal) v3 v11 (ix2 p q) =
      v3 (ix2 p (⟨q.val % 3, Nat.mod_lt _ (by norm_num)⟩ : Fin 3)) + v11 (ix2 p q) * Mlp.quarter := by
  unfold Gen.k0_pay2
  show _ + _ = _
  refine congrArg (· + v11 (ix2 p q) * Mlp.quarter) ?_
  exact concatenate_replicate_apply (t := S1000x48) (s₁ := S1000x3) 1 16 v3
    concatenates_S1000x3_S1000x3_S1000x3_S1000x3_S1000x3_S1000x3_S1000x3_S1000x3_S1000x3_S1000x3_S1000x3_S1000x3_S1000x3_S1000x3_S1000x3_S1000x3_S1000x48_d1
    rfl (ix2 p q) (ix2 p (⟨q.val % 3, Nat.mod_lt _ (by norm_num)⟩ : Fin 3)) rfl
    (fun b => match b with | ⟨0, _⟩ => fun _ => rfl | ⟨1, _⟩ => fun h => absurd (Fin.ext rfl) h)

/-- The positions the body leaves in the block's buffer, at point `p`, column `q`. -/
theorem out0_11_apply (x0 : Vec Ideal S1000x160 .f32) (x1 : Vec Ideal S1000x3 .f32) (x2 : Vec Ideal S32x48 .bf16)
    (x3 : Vec Ideal S1x48 .f32) (x4 : Vec Ideal S3x256 .bf16) (x5 : Vec Ideal S128x256 .bf16) (x6 : Vec Ideal S1x256 .f32)
    (x7 : Vec Ideal S256x128 .bf16) (x8 : Vec Ideal S1x128 .f32) (x9 : Vec Ideal S128x32 .bf16) (x10 : Vec Ideal S1x32 .f32)
    (p : Fin 1000) (q : Fin 48) :
    Gen.out0_11 (F := Ideal) x0 x1 x2 x3 x4 x5 x6 x7 x8 x9 x10 (ix2 p q) =
      Mlp.opt (fun k => x0 (ix2 p k)) (fun d => x1 (ix2 p d)) (fun k q' => x2 (ix2 k q')) (fun q' => x3 (ix2 (0 : Fin 1) q'))
        ⟨q.val / 3, by have := q.isLt; omega⟩ ⟨q.val % 3, Nat.mod_lt _ (by norm_num)⟩ := by
  have hz : (![0, 0] : Fin 2 → Nat) = fun _ => 0 := funext fun a => match a with | ⟨0, _⟩ => rfl | ⟨1, _⟩ => rfl
  have e : Mlp.off (⟨q.val / 3, by have := q.isLt; omega⟩ : Fin 16) (⟨q.val % 3, Nat.mod_lt _ (by norm_num)⟩ : Fin 3) = q :=
    Fin.ext (by show 3 * (q.val / 3) + q.val % 3 = q.val; omega)
  unfold Gen.out0_11
  rw [View.canon_unit_zero hz, View.ld_unit_zero hz, View.ld_unit_zero hz, View.ld_unit_zero hz, View.ld_unit_zero hz]
  rw [pay2_apply, KRel.pay3_apply]
  unfold Mlp.opt
  rw [e]

end Cert.KernelIdeal.KPts

end
-- ==== Proof.KPay.lean ====
/-
  What the kernel's body leaves in its two output blocks, read entry by entry.

  The second output block ([1000, 512]) is written by four stores of 128 lanes; each stored value is the side-by-side
  joining of four neighbours' 32 outputs. So entry (p, q) of the block is output unit `q % 32` of neighbour `q / 32` at
  point `p`. The first output block ([1000, 48]) is one store: the point's three coordinates repeated sixteen times
  plus a quarter of the decoded offsets, so entry (p, q) is coordinate `q % 3` of neighbour `q / 3`.
-/
import proofs.«135425_j45389214384421_2_alg».proof.Proof.Gen.KernelIdeal.Frame
import proofs.«135425_j45389214384421_2_alg».proof.Proof.KNb
import proofs.«135425_j45389214384421_2_alg».proof.Proof.KRel
import proofs.«135425_j45389214384421_2_alg».proof.Proof.KPts

noncomputable section

namespace Cert.KernelIdeal.KPay

open Idealize.ShloMosaic Idealize.ShloMosaic.ValueIdx Cert.KernelIdeal Cert.KernelIdeal.Gen Cert.KernelIdeal.KNb

section Normal
variable {F : FTy → Type} [FloatOps F]

/-- Four neighbours' outputs side by side: a 128-lane stored value. -/
def chunk (o0 o1 o2 o3 : Nat) (h0 : S1000x48.Slices ![0, o0] S1000x3) (h1 : S1000x48.Slices ![0, o1] S1000x3)
    (h2 : S1000x48.Slices ![0, o2] S1000x3) (h3 : S1000x48.Slices ![0, o3] S1000x3)
    (v11 : FVec F S1000x48 .f32) (v19 : FVec F S1000x256 .f32) (v21 : FVec F S3x256 .bf16) (v23 : FVec F S256x128 .bf16)
    (v25 : FVec F S1x128 .f32) (v27 : FVec F S128x32 .bf16) (v29 : FVec F S1x32 .f32) : FVec F S1000x128 .f32 :=
  concatenate S1000x128 1 [⟨S1000x32, nb o0 h0 v11 v19 v21 v23 v25 v27 v29⟩, ⟨S1000x32, nb o1 h1 v11 v19 v21 v23 v25 v27 v29⟩,
    ⟨S1000x32, nb o2 h2 v11 v19 v21 v23 v25 v27 v29⟩, ⟨S1000x32, nb o3 h3 v11 v19 v21 v23 v25 v27 v29⟩]
    concatenates_S1000x32_S1000x32_S1000x32_S1000x32_S1000x128_d1

/-- The second output block after the body: its four stored values are the four groups of four neighbours, each
    neighbour's perceptron run on the block's decoded offsets and shared first-layer part (the body's own text,
    regrouped neighbour by neighbour: every step is the same operation on the same operands). -/
theorem out0_12_eq (x0 : Vec F S1000x160 .f32) (x1 : Vec F S1000x3 .f32) (x2 : Vec F S32x48 .bf16) (x3 : Vec F S1x48 .f32)
    (x4 : Vec F S3x256 .bf16) (x5 : Vec F S128x256 .bf16) (x6 : Vec F S1x256 .f32) (x7 : Vec F S256x128 .bf16)
    (x8 : Vec F S1x128 .f32) (x9 : Vec F S128x32 .bf16) (x10 : Vec F S1x32 .f32) :
    out0_12 x0 x1 x2 x3 x4 x5 x6 x7 x8 x9 x10 =
      View.canon [
        ⟨r0_14, chunk 36 39 42 45 slices_S1000x48_o0_36_S1000x3 slices_S1000x48_o0_39_S1000x3 slices_S1000x48_o0_42_S1000x3 slices_S1000x48_o0_45_S1000x3
          (k0_pay3 (View.ld x0 r0_0) (View.ld x2 r0_2) (View.ld x3 r0_3)) (k0_pay4 (View.ld x0 r0_0) (View.ld x5 r0_4) (View.ld x6 r0_5))
          (k0_pay5 (View.ld x4 r0_6)) (k0_pay6 (View.ld x7 r0_7)) (k0_pay7 (View.ld x8 r0_8)) (k0_pay8 (View.ld x9 r0_9)) (k0_pay9 (View.ld x10 r0_10))⟩,
        ⟨r0_13, chunk 24 27 30 33 slices_S1000x48_o0_24_S1000x3 slices_S1000x48_o0_27_S1000x3 slices_S1000x48_o0_30_S1000x3 slices_S1000x48_o0_33_S1000x3
          (k0_pay3 (View.ld x0 r0_0) (View.ld x2 r0_2) (View.ld x3 r0_3)) (k0_pay4 (View.ld x0 r0_0) (View.ld x5 r0_4) (View.ld x6 r0_5))
          (k0_pay5 (View.ld x4 r0_6)) (k0_pay6 (View.ld x7 r0_7)) (k0_pay7 (View.ld x8 r0_8)) (k0_pay8 (View.ld x9 r0_9)) (k0_pay9 (View.ld x10 r0_10))⟩,
        ⟨r0_12, chunk 12 15 18 21 slices_S1000x48_o0_12_S1000x3 slices_S1000x48_o0_15_S1000x3 slices_S1000x48_o0_18_S1000x3 slices_S1000x48_o0_21_S1000x3
          (k0_pay3 (View.ld x0 r0_0) (View.ld x2 r0_2) (View.ld x3 r0_3)) (k0_pay4 (View.ld x0 r0_0) (View.ld x5 r0_4) (View.ld x6 r0_5))
          (k0_pay5 (View.ld x4 r0_6)) (k0_pay6 (View.ld x7 r0_7)) (k0_pay7 (View.ld x8 r0_8)) (k0_pay8 (View.ld x9 r0_9)) (k0_pay9 (View.ld x10 r0_10))⟩,
        ⟨r0_11, chunk 0 3 6 9 slices_S1000x48_o0_0_S1000x3 slices_S1000x48_o0_3_S1000x3 slices_S1000x48_o0_6_S1000x3 slices_S1000x48_o0_9_S1000x3
          (k0_pay3 (View.ld x0 r0_0) (View.ld x2 r0_2) (View.ld x3 r0_3)) (k0_pay4 (View.ld x0 r0_0) (View.ld x5 r0_4) (View.ld x6 r0_5))
          (k0_pay5 (View.ld x4 r0_6)) (k0_pay6 (View.ld x7 r0_7)) (k0_pay7 (View.ld x8 r0_8)) (k0_pay8 (View.ld x9 r0_9)) (k0_pay9 (View.ld x10 r0_10))⟩] := rfl

end Normal

/-! ## Entry by entry -/

theorem hz2 : (![0, 0] : Fin 2 → Nat) = fun _ => 0 := by funext a; fin_cases a <;> rfl

/-- Output unit `c` of neighbour `j` at point `p` of the block, over the block's decoded offsets `v11` and shared
    first-layer part `v19`. -/
def rowTop (v11 : FVec Ideal S1000x48 .f32) (v19 : FVec Ideal S1000x256 .f32) (v21 : FVec Ideal S3x256 .bf16)
    (v23 : FVec Ideal S256x128 .bf16) (v25 : FVec Ideal S1x128 .f32) (v27 : FVec Ideal S128x32 .bf16) (v29 : FVec Ideal S1x32 .f32)
    (p : Fin 1000) (j : Fin 16) (c : Fin 32) : EReal :=
  Mlp.top (fun k' k => v23 (ix2 k' k)) (fun k => v25 (ix2 (0 : Fin 1) k)) (fun k c => v27 (ix2 k c))
    (fun c => v29 (ix2 (0 : Fin 1) c))
    (fun k' => v19 (ix2 p k') + ∑ d : Fin 3, v11 (ix2 p (Mlp.off j d)) * v21 (ix2 d k')) c

/-- Lane `q` of the stored value of group `G` (neighbours `4 G … 4 G + 3`): neighbour `4 G + q / 32`, unit `q % 32`. -/
theorem chunk_apply (G : Nat) (hG : G < 4) (o0 o1 o2 o3 : Nat) (e0 : o0 = 12 * G) (e1 : o1 = 12 * G + 3) (e2 : o2 = 12 * G + 6)
    (e3 : o3 = 12 * G + 9) (h0 : S1000x48.Slices ![0, o0] S1000x3) (h1 : S1000x48.Slices ![0, o1] S1000x3)
    (h2 : S1000x48.Slices ![0, o2] S1000x3) (h3 : S1000x48.Slices ![0, o3] S1000x3)
    (v11 : FVec Ideal S1000x48 .f32) (v19 : FVec Ideal S1000x256 .f32) (v21 : FVec Ideal S3x256 .bf16)
    (v23 : FVec Ideal S256x128 .bf16) (v25 : FVec Ideal S1x128 .f32) (v27 : FVec Ideal S128x32 .bf16) (v29 : FVec Ideal S1x32 .f32)
    (p : Fin 1000) (q : Fin 128) :
    chunk o0 o1 o2 o3 h0 h1 h2 h3 v11 v19 v21 v23 v25 v27 v29 (ix2 p q)
      = rowTop v11 v19 v21 v23 v25 v27 v29 p ⟨4 * G + q.val / 32, by have := q.isLt; omega⟩
          ⟨q.val % 32, Nat.mod_lt _ (by norm_num)⟩ := by
  have hq := q.isLt
  unfold chunk rowTop
  have hi : ∀ b : Fin S1000x32.rank, b.cast (rfl : S1000x32.rank = S1000x128.rank) ≠ (1 : Fin S1000x128.rank) →
      ((ix2 p (⟨q.val % 32, Nat.mod_lt _ (by norm_num)⟩ : Fin 32) : S1000x32.Idx) b).val = ((ix2 p q : S1000x128.Idx) (b.cast rfl)).val :=
    fun b hb => match b, hb with
      | ⟨0, _⟩, _ => rfl
      | ⟨1, _⟩, hb => absurd rfl hb
  have hc : q.val / 32 = 0 ∨ q.val / 32 = 1 ∨ q.val / 32 = 2 ∨ q.val / 32 = 3 := by omega
  rcases hc with hc | hc | hc | hc
  · refine (concatenate_apply_piece (1 : Fin S1000x128.rank) _ _ (ix2 p q) 0 (by simp) S1000x32 _ rfl rfl 0 rfl
      (ix2 p (⟨q.val % 32, Nat.mod_lt _ (by norm_num)⟩ : Fin 32)) hi (by show 0 + q.val % 32 = q.val; omega)).trans ?_
    rw [nb_apply o0 h0 (by omega)]
    refine congrArg (fun f => Mlp.top _ _ _ _ f _) (funext fun k' => congrArg (v19 (ix2 p k') + ·) (Finset.sum_congr rfl fun d _ => ?_))
    refine congrArg (fun t => v11 (ix2 p t) * v21 (ix2 d k')) (Fin.ext ?_)
    show o0 + d.val = 3 * (4 * G + q.val / 32) + d.val
    omega
  · refine (concatenate_apply_piece (1 : Fin S1000x128.rank) _ _ (ix2 p q) 1 (by simp) S1000x32 _ rfl rfl 32 rfl
      (ix2 p (⟨q.val % 32, Nat.mod_lt _ (by norm_num)⟩ : Fin 32)) hi (by show 32 + q.val % 32 = q.val; omega)).trans ?_
    rw [nb_apply o1 h1 (by omega)]
    refine congrArg (fun f => Mlp.top _ _ _ _ f _) (funext fun k' => congrArg (v19 (ix2 p k') + ·) (Finset.sum_congr rfl fun d _ => ?_))
    refine congrArg (fun t => v11 (ix2 p t) * v21 (ix2 d k')) (Fin.ext ?_)
    show o1 + d.val = 3 * (4 * G + q.val / 32) + d.val
    omega
  · refine (concatenate_apply_piece (1 : Fin S1000x128.rank) _ _ (ix2 p q) 2 (by simp) S1000x32 _ rfl rfl 64 rfl
      (ix2 p (⟨q.val % 32, Nat.mod_lt _ (by norm_num)⟩ : Fin 32)) hi (by show 64 + q.val % 32 = q.val; omega)).trans ?_
    rw [nb_apply o2 h2 (by omega)]
    refine congrArg (fun f => Mlp.top _ _ _ _ f _) (funext fun k' => congrArg (v19 (ix2 p k') + ·) (Finset.sum_congr rfl fun d _ => ?_))
    refine congrArg (fun t => v11 (ix2 p t) * v21 (ix2 d k')) (Fin.ext ?_)
    show o2 + d.val = 3 * (4 * G + q.val / 32) + d.val
    omega
  · refine (concatenate_apply_piece (1 : Fin S1000x128.rank) _ _ (ix2 p q) 3 (by simp) S1000x32 _ rfl rfl 96 rfl
      (ix2 p (⟨q.val % 32, Nat.mod_lt _ (by norm_num)⟩ : Fin 32)) hi (by show 96 + q.val % 32 = q.val; omega)).trans ?_
    rw [nb_apply o3 h3 (by omega)]
    refine congrArg (fun f => Mlp.top _ _ _ _ f _) (funext fun k' => congrArg (v19 (ix2 p k') + ·) (Finset.sum_congr rfl fun d _ => ?_))
    refine congrArg (fun t => v11 (ix2 p t) * v21 (ix2 d k')) (Fin.ext ?_)
    show o3 + d.val = 3 * (4 * G + q.val / 32) + d.val
    omega

theorem rowTop_congr (v11 : FVec Ideal S1000x48 .f32) (v19 : FVec Ideal S1000x256 .f32) (v21 : FVec Ideal S3x256 .bf16)
    (v23 : FVec Ideal S256x128 .bf16) (v25 : FVec Ideal S1x128 .f32) (v27 : FVec Ideal S128x32 .bf16) (v29 : FVec Ideal S1x32 .f32)
    {p p' : Fin 1000} {j j' : Fin 16} {c c' : Fin 32} (hp : p.val = p'.val) (hj : j.val = j'.val) (hc : c.val = c'.val) :
    rowTop v11 v19 v21 v23 v25 v27 v29 p j c = rowTop v11 v19 v21 v23 v25 v27 v29 p' j' c' := by
  obtain rfl := Fin.ext hp; obtain rfl := Fin.ext hj; obtain rfl := Fin.ext hc; rfl

/-- The second output block as ONE function of its index: lane `q` of row `p` is unit `q % 32` of neighbour `q / 32`. -/
def blk (v11 : FVec Ideal S1000x48 .f32) (v19 : FVec Ideal S1000x256 .f32) (v21 : FVec Ideal S3x256 .bf16)
    (v23 : FVec Ideal S256x128 .bf16) (v25 : FVec Ideal S1x128 .f32) (v27 : FVec Ideal S128x32 .bf16) (v29 : FVec Ideal S1x32 .f32) :
    S1000x512.Idx → EReal := fun y =>
  rowTop v11 v19 v21 v23 v25 v27 v29 ⟨(y 0).val, idx2_lt0 y⟩ ⟨(y 1).val / 32, by have := idx2_lt1 y; omega⟩
    ⟨(y 1).val % 32, Nat.mod_lt _ (by norm_num)⟩

/-- The four 128-lane stores tile the block, and each stored value is that one function on its lanes. -/
theorem canon_blk (v11 : FVec Ideal S1000x48 .f32) (v19 : FVec Ideal S1000x256 .f32) (v21 : FVec Ideal S3x256 .bf16)
    (v23 : FVec Ideal S256x128 .bf16) (v25 : FVec Ideal S1x128 .f32) (v27 : FVec Ideal S128x32 .bf16) (v29 : FVec Ideal S1x32 .f32)
    (y : S1000x512.Idx) :
    View.canon [
        (⟨r0_14, chunk 36 39 42 45 slices_S1000x48_o0_36_S1000x3 slices_S1000x48_o0_39_S1000x3 slices_S1000x48_o0_42_S1000x3 slices_S1000x48_o0_45_S1000x3 v11 v19 v21 v23 v25 v27 v29⟩ : View.Piece (Elt Ideal) S1000x512 .f32),
        ⟨r0_13, chunk 24 27 30 33 slices_S1000x48_o0_24_S1000x3 slices_S1000x48_o0_27_S1000x3 slices_S1000x48_o0_30_S1000x3 slices_S1000x48_o0_33_S1000x3 v11 v19 v21 v23 v25 v27 v29⟩,
        ⟨r0_12, chunk 12 15 18 21 slices_S1000x48_o0_12_S1000x3 slices_S1000x48_o0_15_S1000x3 slices_S1000x48_o0_18_S1000x3 slices_S1000x48_o0_21_S1000x3 v11 v19 v21 v23 v25 v27 v29⟩,
        ⟨r0_11, chunk 0 3 6 9 slices_S1000x48_o0_0_S1000x3 slices_S1000x48_o0_3_S1000x3 slices_S1000x48_o0_6_S1000x3 slices_S1000x48_o0_9_S1000x3 v11 v19 v21 v23 v25 v27 v29⟩] y
      = blk v11 v19 v21 v23 v25 v27 v29 y := by
  refine View.canon_apply_of_pieces (Val := Elt Ideal) (blk v11 v19 v21 v23 v25 v27 v29) _ ?_ y (cover0_12 _ _ _ _ y)
  intro pc hpc x
  simp only [List.mem_cons, List.mem_nil_iff, or_false] at hpc
  rcases hpc with rfl | rfl | rfl | rfl
  · obtain ⟨p, q, rfl⟩ : ∃ (p : Fin 1000) (q : Fin 128), x = ix2 p q := ⟨x 0, x 1, eq_ix2 x⟩
    refine (chunk_apply 3 (by norm_num) 36 39 42 45 rfl rfl rfl rfl _ _ _ _ v11 v19 v21 v23 v25 v27 v29 p q).trans ?_
    exact rowTop_congr v11 v19 v21 v23 v25 v27 v29 (by show p.val = 0 + 1 * p.val; omega)
      (by show 4 * 3 + q.val / 32 = (384 + 1 * q.val) / 32; omega) (by show q.val % 32 = (384 + 1 * q.val) % 32; omega)
  · obtain ⟨p, q, rfl⟩ : ∃ (p : Fin 1000) (q : Fin 128), x = ix2 p q := ⟨x 0, x 1, eq_ix2 x⟩
    refine (chunk_apply 2 (by norm_num) 24 27 30 33 rfl rfl rfl rfl _ _ _ _ v11 v19 v21 v23 v25 v27 v29 p q).trans ?_
    exact rowTop_congr v11 v19 v21 v23 v25 v27 v29 (by show p.val = 0 + 1 * p.val; omega)
      (by show 4 * 2 + q.val / 32 = (256 + 1 * q.val) / 32; omega) (by show q.val % 32 = (256 + 1 * q.val) % 32; omega)
  · obtain ⟨p, q, rfl⟩ : ∃ (p : Fin 1000) (q : Fin 128), x = ix2 p q := ⟨x 0, x 1, eq_ix2 x⟩
    refine (chunk_apply 1 (by norm_num) 12 15 18 21 rfl rfl rfl rfl _ _ _ _ v11 v19 v21 v23 v25 v27 v29 p q).trans ?_
    exact rowTop_congr v11 v19 v21 v23 v25 v27 v29 (by show p.val = 0 + 1 * p.val; omega)
      (by show 4 * 1 + q.val / 32 = (128 + 1 * q.val) / 32; omega) (by show q.val % 32 = (128 + 1 * q.val) % 32; omega)
  · obtain ⟨p, q, rfl⟩ : ∃ (p : Fin 1000) (q : Fin 128), x = ix2 p q := ⟨x 0, x 1, eq_ix2 x⟩
    refine (chunk_apply 0 (by norm_num) 0 3 6 9 rfl rfl rfl rfl _ _ _ _ v11 v19 v21 v23 v25 v27 v29 p q).trans ?_
    exact rowTop_congr v11 v19 v21 v23 v25 v27 v29 (by show p.val = 0 + 1 * p.val; omega)
      (by show 4 * 0 + q.val / 32 = (0 + 1 * q.val) / 32; omega) (by show q.val % 32 = (0 + 1 * q.val) % 32; omega)

/-- Entry (p, q) of the second output block: output unit `q % 32` of neighbour `q / 32` of the block's point `p`,
    over the block's own feature rows and the nine weight and bias blocks. -/
theorem out0_12_apply (x0 : Vec Ideal S1000x160 .f32) (x1 : Vec Ideal S1000x3 .f32) (x2 : Vec Ideal S32x48 .bf16)
    (x3 : Vec Ideal S1x48 .f32) (x4 : Vec Ideal S3x256 .bf16) (x5 : Vec Ideal S128x256 .bf16) (x6 : Vec Ideal S1x256 .f32)
    (x7 : Vec Ideal S256x128 .bf16) (x8 : Vec Ideal S1x128 .f32) (x9 : Vec Ideal S128x32 .bf16) (x10 : Vec Ideal S1x32 .f32)
    (p : Fin 1000) (q : Fin 512) :
    Gen.out0_12 (F := Ideal) x0 x1 x2 x3 x4 x5 x6 x7 x8 x9 x10 (ix2 p q) =
      Mlp.fc3 (fun k => x0 (ix2 p k)) (fun k q' => x2 (ix2 k q')) (fun q' => x3 (ix2 (0 : Fin 1) q'))
        (fun d c => x4 (ix2 d c)) (fun k c => x5 (ix2 k c)) (fun c => x6 (ix2 (0 : Fin 1) c))
        (fun k c => x7 (ix2 k c)) (fun c => x8 (ix2 (0 : Fin 1) c)) (fun k c => x9 (ix2 k c)) (fun c => x10 (ix2 (0 : Fin 1) c))
        ⟨q.val / 32, by have := q.isLt; omega⟩ ⟨q.val % 32, Nat.mod_lt _ (by norm_num)⟩ := by
  rw [out0_12_eq, canon_blk]
  simp only [View.ld_unit_zero (S := S1000x160) hz2, View.ld_unit_zero (S := S32x48) hz2, View.ld_unit_zero (S := S1x48) hz2,
    View.ld_unit_zero (S := S3x256) hz2, View.ld_unit_zero (S := S128x256) hz2, View.ld_unit_zero (S := S1x256) hz2,
    View.ld_unit_zero (S := S256x128) hz2, View.ld_unit_zero (S := S1x128) hz2, View.ld_unit_zero (S := S128x32) hz2,
    View.ld_unit_zero (S := S1x32) hz2, KRel.pay5_eq, KRel.pay6_eq, KRel.pay7_eq, KRel.pay8_eq, KRel.pay9_eq]
  unfold blk rowTop Mlp.fc3 Mlp.lin1
  simp only [KRel.pay4_apply, KRel.pay3_apply]

/-- Entry (p, q) of the first output block: coordinate `q % 3` of neighbour `q / 3`'s position. -/
theorem out0_11_apply (x0 : Vec Ideal S1000x160 .f32) (x1 : Vec Ideal S1000x3 .f32) (x2 : Vec Ideal S32x48 .bf16)
    (x3 : Vec Ideal S1x48 .f32) (x4 : Vec Ideal S3x256 .bf16) (x5 : Vec Ideal S128x256 .bf16) (x6 : Vec Ideal S1x256 .f32)
    (x7 : Vec Ideal S256x128 .bf16) (x8 : Vec Ideal S1x128 .f32) (x9 : Vec Ideal S128x32 .bf16) (x10 : Vec Ideal S1x32 .f32)
    (p : Fin 1000) (q : Fin 48) :
    Gen.out0_11 (F := Ideal) x0 x1 x2 x3 x4 x5 x6 x7 x8 x9 x10 (ix2 p q) =
      Mlp.opt (fun k => x0 (ix2 p k)) (fun d => x1 (ix2 p d)) (fun k q' => x2 (ix2 k q')) (fun q' => x3 (ix2 (0 : Fin 1) q'))
        ⟨q.val / 3, by have := q.isLt; omega⟩ ⟨q.val % 3, Nat.mod_lt _ (by norm_num)⟩ :=
  KPts.out0_11_apply x0 x1 x2 x3 x4 x5 x6 x7 x8 x9 x10 p q

end Cert.KernelIdeal.KPay

end
-- ==== Proof.KArrBlk.lean ====
import proofs.«135425_j45389214384421_2_alg».proof.Proof.Gen.KernelIdeal.Frame
import proofs.«135425_j45389214384421_2_alg».proof.Proof.Spec
import Idealize.ShloMosaic.Lib.Pipeline.Value

/-!
  The thirteen windows of the one region, read entry by entry.

  The grid has 50 points; point `t` works on rows `1000 t … 1000 t + 999` of the 50000 points. The feature and point
  windows (and the two result windows) hold block `(t, 0)` of their arrays: entry `(p, k)` of the block is entry
  `(1000 t + p, k)` of the array. The nine weight and bias windows hold their whole array at every point, and that
  array is what the operations before the region made of an argument: a change of float format (the identity on the
  extended reals), the top three or the bottom 128 rows of the first layer's 131-row weight, or a bias of `n` entries
  laid out as one row `[1, n]`. So every entry of every input block is one entry of one argument array.
-/

noncomputable section

namespace Cert.KernelIdeal.KArrBlk

open Idealize.ShloMosaic Idealize.ShloMosaic.ValueIdx Idealize.ShloMosaic.TcCoe Idealize.SL.Sem Cert.KernelIdeal
open Cert.KernelIdeal.Facts₀ Cert.KernelIdeal.Facts

variable (m : (ℓ : Loc nD τ sig) → Buf (Elt Ideal) ℓ) (c : Dev nD)

/-! ## The block index of each window at each grid point -/

/-- The four windows cut along the points: block `(t, 0)` at point `t`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The nine weight and bias windows: block `(0, 0)`, the whole array, at every point. -/
theorem idx_zero : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- A row of a block lies inside the 50000 rows. -/
theorem row_lt (t : Fin cfg0.N) (p : Fin 1000) : t.val * 1000 + p.val < 50000 := by
  have hN : cfg0.N = 50 := Gen.N_0
  have ht := t.isLt
  have hp := p.isLt
  omega

/-! ## The arrays the operations before the region wrote -/

theorem V_v0 : (Gen.V m c main_v0 : FVec Ideal S32x48 .bf16)
    = (truncf (F := Ideal) .bf16 (m ((c.tc : Thread nD τ).loc main_arg3) : FVec Ideal S32x48 .f32) bitsLt_bf16_f32 : FVec Ideal S32x48 .bf16) := by
  show StableHlo.after Gen.hostOps0 (fun b => m (c, b)) (Proc.devRef .tc main_v0) = _
  after_results <;> rfl

theorem V_v2 : (Gen.V m c main_v2 : FVec Ideal S3x256 .bf16)
    = (truncf (F := Ideal) .bf16 (extractStridedSlice S3x256 ![0, 0] (m ((c.tc : Thread nD τ).loc main_arg5) : FVec Ideal S131x256 .f32) slices_S131x256_S3x256_0_0 : FVec Ideal S3x256 .f32) bitsLt_bf16_f32 : FVec Ideal S3x256 .bf16) := by
  show StableHlo.after Gen.hostOps0 (fun b => m (c, b)) (Proc.devRef .tc main_v2) = _
  after_results <;> rfl

theorem V_v4 : (Gen.V m c main_v4 : FVec Ideal S128x256 .bf16)
    = (truncf (F := Ideal) .bf16 (extractStridedSlice S128x256 ![3, 0] (m ((c.tc : Thread nD τ).loc main_arg5) : FVec Ideal S131x256 .f32) slices_S131x256_S128x256_3_0 : FVec Ideal S128x256 .f32) bitsLt_bf16_f32 : FVec Ideal S128x256 .bf16) := by
  show StableHlo.after Gen.hostOps0 (fun b => m (c, b)) (Proc.devRef .tc main_v4) = _
  after_results <;> rfl

theorem V_v5 : (Gen.V m c main_v5 : FVec Ideal S256x128 .bf16)
    = (truncf (F := Ideal) .bf16 (m ((c.tc : Thread nD τ).loc main_arg7) : FVec Ideal S256x128 .f32) bitsLt_bf16_f32 : FVec Ideal S256x128 .bf16) := by
  show StableHlo.after Gen.hostOps0 (fun b => m (c, b)) (Proc.devRef .tc main_v5) = _
  after_results <;> rfl

theorem V_v6 : (Gen.V m c main_v6 : FVec Ideal S128x32 .bf16)
    = (truncf (F := Ideal) .bf16 (m ((c.tc : Thread nD τ).loc main_arg9) : FVec Ideal S128x32 .f32) bitsLt_bf16_f32 : FVec Ideal S128x32 .bf16) := by
  show StableHlo.after Gen.hostOps0 (fun b => m (c, b)) (Proc.devRef .tc main_v6) = _
  after_results <;> rfl

theorem V_v7 : (Gen.V m c main_v7 : S1x48.Idx → EReal)
    = shapeCast S1x48 (m ((c.tc : Thread nD τ).loc main_arg4) : S48.Idx → EReal) shapeCasts_S48_S1x48 := by
  show StableHlo.after Gen.hostOps0 (fun b => m (c, b)) (Proc.devRef .tc main_v7) = _
  after_results <;> rfl

theorem V_v8 : (Gen.V m c main_v8 : S1x256.Idx → EReal)
    = shapeCast S1x256 (m ((c.tc : Thread nD τ).loc main_arg6) : S256.Idx → EReal) shapeCasts_S256_S1x256 := by
  show StableHlo.after Gen.hostOps0 (fun b => m (c, b)) (Proc.devRef .tc main_v8) = _
  after_results <;> rfl

theorem V_v9 : (Gen.V m c main_v9 : S1x128.Idx → EReal)
    = shapeCast S1x128 (m ((c.tc : Thread nD τ).loc main_arg8) : S128.Idx → EReal) shapeCasts_S128_S1x128 := by
  show StableHlo.after Gen.hostOps0 (fun b => m (c, b)) (Proc.devRef .tc main_v9) = _
  after_results <;> rfl

theorem V_v10 : (Gen.V m c main_v10 : S1x32.Idx → EReal)
    = shapeCast S1x32 (m ((c.tc : Thread nD τ).loc main_arg10) : S32.Idx → EReal) shapeCasts_S32_S1x32 := by
  show StableHlo.after Gen.hostOps0 (fun b => m (c, b)) (Proc.devRef .tc main_v10) = _
  after_results <;> rfl

/-! ## Each input block, entry by entry -/

/-- Features: entry `(p, k)` of the block at point `t` is entry `(1000 t + p, k)` of the feature array. -/
theorem iblk0_apply (t : Fin cfg0.N) (p : Fin 1000) (k : Fin 160) :
    (Gen.iblk m c 0 t : Vec Ideal S1000x160 .f32) (ix2 p k)
      = (m ((c.tc : Thread nD τ).loc main_arg1) : S50000x160.Idx → EReal) (ix2 ⟨t.val * 1000 + p.val, row_lt t p⟩ k) := by
  obtain ⟨e0, e1, -⟩ := idx_rows t
  unfold Gen.iblk
  rw [View.read_apply]
  show Gen.V m c main_arg1 _ = _
  rw [Gen.V_main_arg1]
  refine congrArg _ (funext fun a => Fin.ext ?_)
  match a with
  | ⟨0, _⟩ => show win0_0.index t (0 : Fin 2) * 1000 + 1 * p.val = t.val * 1000 + p.val; rw [e0]; omega
  | ⟨1, _⟩ => show win0_0.index t (1 : Fin 2) * 160 + 1 * k.val = k.val; rw [e1]; omega

/-- Points: entry `(p, d)` of the block at point `t` is entry `(1000 t + p, d)` of the point array. -/
theorem iblk1_apply (t : Fin cfg0.N) (p : Fin 1000) (d : Fin 3) :
    (Gen.iblk m c 1 t : Vec Ideal S1000x3 .f32) (ix2 p d)
      = (m ((c.tc : Thread nD τ).loc main_arg0) : S50000x3.Idx → EReal) (ix2 ⟨t.val * 1000 + p.val, row_lt t p⟩ d) := by
  obtain ⟨-, -, e0, e1, -⟩ := idx_rows t
  unfold Gen.iblk
  rw [View.read_apply]
  show Gen.V m c main_arg0 _ = _
  rw [Gen.V_main_arg0]
  refine congrArg _ (funext fun a => Fin.ext ?_)
  match a with
  | ⟨0, _⟩ => show win0_1.index t (0 : Fin 2) * 1000 + 1 * p.val = t.val * 1000 + p.val; rw [e0]; omega
  | ⟨1, _⟩ => show win0_1.index t (1 : Fin 2) * 3 + 1 * d.val = d.val; rw [e1]; omega

/-- The decoder's weight: the argument, entry for entry. -/
theorem iblk2_apply (t : Fin cfg0.N) (k : Fin 32) (q : Fin 48) :
    (Gen.iblk m c 2 t : Vec Ideal S32x48 .bf16) (ix2 k q)
      = (m ((c.tc : Thread nD τ).loc main_arg3) : S32x48.Idx → EReal) (ix2 k q) := by
  obtain ⟨⟨e0, e1⟩, -⟩ := idx_zero t
  unfold Gen.iblk
  rw [View.read_apply]
  show Gen.V m c main_v0 _ = _
  rw [V_v0]
  show (m ((c.tc : Thread nD τ).loc main_arg3) : S32x48.Idx → EReal) _ = _
  refine congrArg _ (funext fun a => Fin.ext ?_)
  match a with
  | ⟨0, _⟩ => show win0_2.index t (0 : Fin 2) * 32 + 1 * k.val = k.val; rw [e0]; omega
  | ⟨1, _⟩ => show win0_2.index t (1 : Fin 2) * 48 + 1 * q.val = q.val; rw [e1]; omega

/-- The decoder's bias as one row: entry `(0, q)` is entry `q` of the argument. -/
theorem iblk3_apply (t : Fin cfg0.N) (q : Fin 48) :
    (Gen.iblk m c 3 t : Vec Ideal S1x48 .f32) (ix2 (0 : Fin 1) q)
      = (m ((c.tc : Thread nD τ).loc main_arg4) : S48.Idx → EReal) (ix1 q) := by
  obtain ⟨-, ⟨e0, e1⟩, -⟩ := idx_zero t
  unfold Gen.iblk
  rw [View.read_apply]
  show Gen.V m c main_v7 _ = _
  rw [V_v7]
  refine shapeCast_apply _ _ _ (ix1 q) ?_
  rw [Shape.rowMajor_val_two, Shape.rowMajor_val_one]
  show q.val = (win0_3.index t (0 : Fin 2) * 1 + 1 * 0) * 48 + (win0_3.index t (1 : Fin 2) * 48 + 1 * q.val)
  rw [e0, e1]; omega

/-- The first layer's rows for the three offset coordinates: rows `0, 1, 2` of the 131-row argument. -/
theorem iblk4_apply (t : Fin cfg0.N) (d : Fin 3) (q : Fin 256) :
    (Gen.iblk m c 4 t : Vec Ideal S3x256 .bf16) (ix2 d q)
      = (m ((c.tc : Thread nD τ).loc main_arg5) : S131x256.Idx → EReal) (ix2 (Mlp.w1top d) q) := by
  obtain ⟨-, -, ⟨e0, e1⟩, -⟩ := idx_zero t
  unfold Gen.iblk
  rw [View.read_apply]
  show Gen.V m c main_v2 _ = _
  rw [V_v2]
  show extractStridedSlice S3x256 ![0, 0] (m ((c.tc : Thread nD τ).loc main_arg5) : S131x256.Idx → EReal) slices_S131x256_S3x256_0_0 _ = _
  refine extractStridedSlice_apply _ _ _ _ _ fun a => ?_
  match a with
  | ⟨0, _⟩ => show d.val = 0 + (win0_4.index t (0 : Fin 2) * 3 + 1 * d.val); rw [e0]; omega
  | ⟨1, _⟩ => show q.val = 0 + (win0_4.index t (1 : Fin 2) * 256 + 1 * q.val); rw [e1]; omega

/-- The first layer's rows for the 128 shared features: rows `3 … 130` of the 131-row argument. -/
theorem iblk5_apply (t : Fin cfg0.N) (k : Fin 128) (q : Fin 256) :
    (Gen.iblk m c 5 t : Vec Ideal S128x256 .bf16) (ix2 k q)
      = (m ((c.tc : Thread nD τ).loc main_arg5) : S131x256.Idx → EReal) (ix2 (Mlp.w1bot k) q) := by
  obtain ⟨-, -, -, ⟨e0, e1⟩, -⟩ := idx_zero t
  unfold Gen.iblk
  rw [View.read_apply]
  show Gen.V m c main_v4 _ = _
  rw [V_v4]
  show extractStridedSlice S128x256 ![3, 0] (m ((c.tc : Thread nD τ).loc main_arg5) : S131x256.Idx → EReal) slices_S131x256_S128x256_3_0 _ = _
  refine extractStridedSlice_apply _ _ _ _ _ fun a => ?_
  match a with
  | ⟨0, _⟩ => show 3 + k.val = 3 + (win0_5.index t (0 : Fin 2) * 128 + 1 * k.val); rw [e0]; omega
  | ⟨1, _⟩ => show q.val = 0 + (win0_5.index t (1 : Fin 2) * 256 + 1 * q.val); rw [e1]; omega

/-- The first layer's bias as one row. -/
theorem iblk6_apply (t : Fin cfg0.N) (q : Fin 256) :
    (Gen.iblk m c 6 t : Vec Ideal S1x256 .f32) (ix2 (0 : Fin 1) q)
      = (m ((c.tc : Thread nD τ).loc main_arg6) : S256.Idx → EReal) (ix1 q) := by
  obtain ⟨-, -, -, -, ⟨e0, e1⟩, -⟩ := idx_zero t
  unfold Gen.iblk
  rw [View.read_apply]
  show Gen.V m c main_v8 _ = _
  rw [V_v8]
  refine shapeCast_apply _ _ _ (ix1 q) ?_
  rw [Shape.rowMajor_val_two, Shape.rowMajor_val_one]
  show q.val = (win0_6.index t (0 : Fin 2) * 1 + 1 * 0) * 256 + (win0_6.index t (1 : Fin 2) * 256 + 1 * q.val)
  rw [e0, e1]; omega

/-- The second layer's weight: the argument, entry for entry. -/
theorem iblk7_apply (t : Fin cfg0.N) (k : Fin 256) (q : Fin 128) :
    (Gen.iblk m c 7 t : Vec Ideal S256x128 .bf16) (ix2 k q)
      = (m ((c.tc : Thread nD τ).loc main_arg7) : S256x128.Idx → EReal) (ix2 k q) := by
  obtain ⟨-, -, -, -, -, ⟨e0, e1⟩, -⟩ := idx_zero t
  unfold Gen.iblk
  rw [View.read_apply]
  show Gen.V m c main_v5 _ = _
  rw [V_v5]
  show (m ((c.tc : Thread nD τ).loc main_arg7) : S256x128.Idx → EReal) _ = _
  refine congrArg _ (funext fun a => Fin.ext ?_)
  match a with
  | ⟨0, _⟩ => show win0_7.index t (0 : Fin 2) * 256 + 1 * k.val = k.val; rw [e0]; omega
  | ⟨1, _⟩ => show win0_7.index t (1 : Fin 2) * 128 + 1 * q.val = q.val; rw [e1]; omega

/-- The second layer's bias as one row. -/
theorem iblk8_apply (t : Fin cfg0.N) (q : Fin 128) :
    (Gen.iblk m c 8 t : Vec Ideal S1x128 .f32) (ix2 (0 : Fin 1) q)
      = (m ((c.tc : Thread nD τ).loc main_arg8) : S128.Idx → EReal) (ix1 q) := by
  obtain ⟨-, -, -, -, -, -, ⟨e0, e1⟩, -⟩ := idx_zero t
  unfold Gen.iblk
  rw [View.read_apply]
  show Gen.V m c main_v9 _ = _
  rw [V_v9]
  refine shapeCast_apply _ _ _ (ix1 q) ?_
  rw [Shape.rowMajor_val_two, Shape.rowMajor_val_one]
  show q.val = (win0_8.index t (0 : Fin 2) * 1 + 1 * 0) * 128 + (win0_8.index t (1 : Fin 2) * 128 + 1 * q.val)
  rw [e0, e1]; omega

/-- The third layer's weight: the argument, entry for entry. -/
theorem iblk9_apply (t : Fin cfg0.N) (k : Fin 128) (q : Fin 32) :
    (Gen.iblk m c 9 t : Vec Ideal S128x32 .bf16) (ix2 k q)
      = (m ((c.tc : Thread nD τ).loc main_arg9) : S128x32.Idx → EReal) (ix2 k q) := by
  obtain ⟨-, -, -, -, -, -, -, ⟨e0, e1⟩, -⟩ := idx_zero t
  unfold Gen.iblk
  rw [View.read_apply]
  show Gen.V m c main_v6 _ = _
  rw [V_v6]
  show (m ((c.tc : Thread nD τ).loc main_arg9) : S128x32.Idx → EReal) _ = _
  refine congrArg _ (funext fun a => Fin.ext ?_)
  match a with
  | ⟨0, _⟩ => show win0_9.index t (0 : Fin 2) * 128 + 1 * k.val = k.val; rw [e0]; omega
  | ⟨1, _⟩ => show win0_9.index t (1 : Fin 2) * 32 + 1 * q.val = q.val; rw [e1]; omega

/-- The third layer's bias as one row. -/
theorem iblk10_apply (t : Fin cfg0.N) (q : Fin 32) :
    (Gen.iblk m c 10 t : Vec Ideal S1x32 .f32) (ix2 (0 : Fin 1) q)
      = (m ((c.tc : Thread nD τ).loc main_arg10) : S32.Idx → EReal) (ix1 q) := by
  obtain ⟨-, -, -, -, -, -, -, -, e0, e1⟩ := idx_zero t
  unfold Gen.iblk
  rw [View.read_apply]
  show Gen.V m c main_v10 _ = _
  rw [V_v10]
  refine shapeCast_apply _ _ _ (ix1 q) ?_
  rw [Shape.rowMajor_val_two, Shape.rowMajor_val_one]
  show q.val = (win0_10.index t (0 : Fin 2) * 1 + 1 * 0) * 32 + (win0_10.index t (1 : Fin 2) * 32 + 1 * q.val)
  rw [e0, e1]; omega

end Cert.KernelIdeal.KArrBlk

end
-- ==== Proof.KArr.lean ====
import proofs.«135425_j45389214384421_2_alg».proof.Proof.KPay
import proofs.«135425_j45389214384421_2_alg».proof.Proof.KArrBlk

/-!
  The region's two result arrays, from its blocks.

  At grid point `t` the body leaves in the two result windows, row `p` of 1000, what the specification computes for
  point `1000 t + p` of the 50000: the sixteen neighbours' positions side by side (48 numbers) and their sixteen
  32-unit outputs side by side (512 numbers). That is because every entry the body reads is an entry of an argument
  array: the feature and point rows are rows `1000 t + p`, and the weights and biases are the arguments themselves.
  Each point writes its block back to rows `1000 t … 1000 t + 999`; row `r` is covered by point `r / 1000`, so after
  the last point each array holds the specification's value in every row.
-/

noncomputable section

namespace Cert.KernelIdeal.KArr

open Idealize.ShloMosaic Idealize.ShloMosaic.ValueIdx Idealize.ShloMosaic.TcCoe Idealize.SL.Sem Cert.KernelIdeal
open Cert.KernelIdeal.Facts₀ Cert.KernelIdeal.Facts

/-! ## The specification's rows at an index given by its coordinates -/

theorem P512_ix2 (a1 : Mlp.A2 50000 160) (a3 : Mlp.A2 32 48) (a4 : Mlp.A1 48) (a5 : Mlp.A2 131 256) (a6 : Mlp.A1 256)
    (a7 : Mlp.A2 256 128) (a8 : Mlp.A1 128) (a9 : Mlp.A2 128 32) (a10 : Mlp.A1 32) (r : Fin 50000) (q : Fin 512) :
    Mlp.P512 a1 a3 a4 a5 a6 a7 a8 a9 a10 (ix2 r q)
      = Mlp.fc3 (fun k => a1 (ix2 r k)) (fun k q' => a3 (ix2 k q')) (fun q' => a4 (ix1 q'))
          (fun d c => a5 (ix2 (Mlp.w1top d) c)) (fun k c => a5 (ix2 (Mlp.w1bot k) c)) (fun c => a6 (ix1 c))
          (fun k c => a7 (ix2 k c)) (fun c => a8 (ix1 c)) (fun k c => a9 (ix2 k c)) (fun c => a10 (ix1 c))
          ⟨q.val / 32, by have := q.isLt; omega⟩ ⟨q.val % 32, Nat.mod_lt _ (by norm_num)⟩ := rfl

theorem P48_ix2 (a0 : Mlp.A2 50000 3) (a1 : Mlp.A2 50000 160) (a3 : Mlp.A2 32 48) (a4 : Mlp.A1 48) (r : Fin 50000) (q : Fin 48) :
    Mlp.P48 a0 a1 a3 a4 (ix2 r q)
      = Mlp.opt (fun k => a1 (ix2 r k)) (fun d => a0 (ix2 r d)) (fun k q' => a3 (ix2 k q')) (fun q' => a4 (ix1 q'))
          ⟨q.val / 3, by have := q.isLt; omega⟩ ⟨q.val % 3, Nat.mod_lt _ (by norm_num)⟩ := rfl

/-! ## One row of a block is one row of the specification

Stated over any blocks and any arrays whose entries agree as the windows' do. -/

theorem out12_row (x0 : Vec Ideal S1000x160 .f32) (x1 : Vec Ideal S1000x3 .f32) (x2 : Vec Ideal S32x48 .bf16)
    (x3 : Vec Ideal S1x48 .f32) (x4 : Vec Ideal S3x256 .bf16) (x5 : Vec Ideal S128x256 .bf16) (x6 : Vec Ideal S1x256 .f32)
    (x7 : Vec Ideal S256x128 .bf16) (x8 : Vec Ideal S1x128 .f32) (x9 : Vec Ideal S128x32 .bf16) (x10 : Vec Ideal S1x32 .f32)
    (a1 : Mlp.A2 50000 160) (a3 : Mlp.A2 32 48) (a4 : Mlp.A1 48) (a5 : Mlp.A2 131 256) (a6 : Mlp.A1 256)
    (a7 : Mlp.A2 256 128) (a8 : Mlp.A1 128) (a9 : Mlp.A2 128 32) (a10 : Mlp.A1 32)
    (p : Fin 1000) (r : Fin 50000) (q : Fin 512)
    (h0 : ∀ k : Fin 160, x0 (ix2 p k) = a1 (ix2 r k))
    (h2 : ∀ (k : Fin 32) (q' : Fin 48), x2 (ix2 k q') = a3 (ix2 k q'))
    (h3 : ∀ q' : Fin 48, x3 (ix2 (0 : Fin 1) q') = a4 (ix1 q'))
    (h4 : ∀ (d : Fin 3) (c : Fin 256), x4 (ix2 d c) = a5 (ix2 (Mlp.w1top d) c))
    (h5 : ∀ (k : Fin 128) (c : Fin 256), x5 (ix2 k c) = a5 (ix2 (Mlp.w1bot k) c))
    (h6 : ∀ c : Fin 256, x6 (ix2 (0 : Fin 1) c) = a6 (ix1 c))
    (h7 : ∀ (k : Fin 256) (c : Fin 128), x7 (ix2 k c) = a7 (ix2 k c))
    (h8 : ∀ c : Fin 128, x8 (ix2 (0 : Fin 1) c) = a8 (ix1 c))
    (h9 : ∀ (k : Fin 128) (c : Fin 32), x9 (ix2 k c) = a9 (ix2 k c))
    (h10 : ∀ c : Fin 32, x10 (ix2 (0 : Fin 1) c) = a10 (ix1 c)) :
    Gen.out0_12 (F := Ideal) x0 x1 x2 x3 x4 x5 x6 x7 x8 x9 x10 (ix2 p q) = Mlp.P512 a1 a3 a4 a5 a6 a7 a8 a9 a10 (ix2 r q) := by
  rw [KPay.out0_12_apply, P512_ix2]
  have e0 : (fun k => x0 (ix2 p k)) = fun k => a1 (ix2 r k) := funext h0
  have e2 : (fun k q' => x2 (ix2 k q')) = fun k q' => a3 (ix2 k q') := funext fun k => funext (h2 k)
  have e3 : (fun q' => x3 (ix2 (0 : Fin 1) q')) = fun q' => a4 (ix1 q') := funext h3
  have e4 : (fun d c => x4 (ix2 d c)) = fun d c => a5 (ix2 (Mlp.w1top d) c) := funext fun d => funext (h4 d)
  have e5 : (fun k c => x5 (ix2 k c)) = fun k c => a5 (ix2 (Mlp.w1bot k) c) := funext fun k => funext (h5 k)
  have e6 : (fun c => x6 (ix2 (0 : Fin 1) c)) = fun c => a6 (ix1 c) := funext h6
  have e7 : (fun k c => x7 (ix2 k c)) = fun k c => a7 (ix2 k c) := funext fun k => funext (h7 k)
  have e8 : (fun c => x8 (ix2 (0 : Fin 1) c)) = fun c => a8 (ix1 c) := funext h8
  have e9 : (fun k c => x9 (ix2 k c)) = fun k c => a9 (ix2 k c) := funext fun k => funext (h9 k)
  have e10 : (fun c => x10 (ix2 (0 : Fin 1) c)) = fun c => a10 (ix1 c) := funext h10
  rw [e0, e2, e3, e4, e5, e6, e7, e8, e9, e10]

theorem out11_row (x0 : Vec Ideal S1000x160 .f32) (x1 : Vec Ideal S1000x3 .f32) (x2 : Vec Ideal S32x48 .bf16)
    (x3 : Vec Ideal S1x48 .f32) (x4 : Vec Ideal S3x256 .bf16) (x5 : Vec Ideal S128x256 .bf16) (x6 : Vec Ideal S1x256 .f32)
    (x7 : Vec Ideal S256x128 .bf16) (x8 : Vec Ideal S1x128 .f32) (x9 : Vec Ideal S128x32 .bf16) (x10 : Vec Ideal S1x32 .f32)
    (a0 : Mlp.A2 50000 3) (a1 : Mlp.A2 50000 160) (a3 : Mlp.A2 32 48) (a4 : Mlp.A1 48)
    (p : Fin 1000) (r : Fin 50000) (q : Fin 48)
    (h0 : ∀ k : Fin 160, x0 (ix2 p k) = a1 (ix2 r k))
    (h1 : ∀ d : Fin 3, x1 (ix2 p d) = a0 (ix2 r d))
    (h2 : ∀ (k : Fin 32) (q' : Fin 48), x2 (ix2 k q') = a3 (ix2 k q'))
    (h3 : ∀ q' : Fin 48, x3 (ix2 (0 : Fin 1) q') = a4 (ix1 q')) :
    Gen.out0_11 (F := Ideal) x0 x1 x2 x3 x4 x5 x6 x7 x8 x9 x10 (ix2 p q) = Mlp.P48 a0 a1 a3 a4 (ix2 r q) := by
  rw [KPay.out0_11_apply, P48_ix2]
  have e0 : (fun k => x0 (ix2 p k)) = fun k => a1 (ix2 r k) := funext h0
  have e1 : (fun d => x1 (ix2 p d)) = fun d => a0 (ix2 r d) := funext h1
  have e2 : (fun k q' => x2 (ix2 k q')) = fun k q' => a3 (ix2 k q') := funext fun k => funext (h2 k)
  have e3 : (fun q' => x3 (ix2 (0 : Fin 1) q')) = fun q' => a4 (ix1 q') := funext h3
  rw [e0, e1, e2, e3]

variable (m : (ℓ : Loc nD τ sig) → Buf (Elt Ideal) ℓ) (c : Dev nD)

/-! ## What each grid point writes back -/

/-- Point `t` writes back, to the 512-wide result, block `t` of the specification's array. -/
theorem flushed12_eq (t : Fin cfg0.N) :
    (Gen.dats (F := Ideal) m 0 c).flushed 12 t = ((cfg0.win 12).blk t).view.read (Elt Ideal)
      (Mlp.P512 (m ((c.tc : Thread nD τ).loc main_arg1)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10))) := by
  show (cfg0.win 12).cut (grid0.coords t) ((Gen.dats (F := Ideal) m 0 c).after 12 t) = _
  rw [Gen.after0_12]
  funext j
  obtain ⟨p, q, rfl⟩ : ∃ (p : Fin 1000) (q : Fin 512), j = ix2 p q := ⟨j 0, j 1, eq_ix2 j⟩
  rw [View.read_apply]
  have hi : ((cfg0.win 12).blk t).view.emb (ix2 p q) = (ix2 ⟨t.val * 1000 + p.val, KArrBlk.row_lt t p⟩ q : S50000x512.Idx) := by
    obtain ⟨-, -, -, -, -, -, e0, e1⟩ := KArrBlk.idx_rows t
    funext a
    apply Fin.ext
    match a with
    | ⟨0, _⟩ => show win0_12.index t (0 : Fin 2) * 1000 + 1 * p.val = t.val * 1000 + p.val; rw [e0]; omega
    | ⟨1, _⟩ => show win0_12.index t (1 : Fin 2) * 512 + 1 * q.val = q.val; rw [e1]; omega
  show Gen.out0_12 (F := Ideal) (Gen.iblk m c 0 t) (Gen.iblk m c 1 t) (Gen.iblk m c 2 t) (Gen.iblk m c 3 t) (Gen.iblk m c 4 t)
      (Gen.iblk m c 5 t) (Gen.iblk m c 6 t) (Gen.iblk m c 7 t) (Gen.iblk m c 8 t) (Gen.iblk m c 9 t) (Gen.iblk m c 10 t) (ix2 p q)
    = Mlp.P512 (m ((c.tc : Thread nD τ).loc main_arg1)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (((cfg0.win 12).blk t).view.emb (ix2 p q))
  rw [hi]
  exact out12_row (Gen.iblk m c 0 t) (Gen.iblk m c 1 t) (Gen.iblk m c 2 t) (Gen.iblk m c 3 t) (Gen.iblk m c 4 t)
    (Gen.iblk m c 5 t) (Gen.iblk m c 6 t) (Gen.iblk m c 7 t) (Gen.iblk m c 8 t) (Gen.iblk m c 9 t) (Gen.iblk m c 10 t)
    (m ((c.tc : Thread nD τ).loc main_arg1)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) p ⟨t.val * 1000 + p.val, KArrBlk.row_lt t p⟩ q
    (KArrBlk.iblk0_apply m c t p) (KArrBlk.iblk2_apply m c t) (KArrBlk.iblk3_apply m c t) (KArrBlk.iblk4_apply m c t)
    (KArrBlk.iblk5_apply m c t) (KArrBlk.iblk6_apply m c t) (KArrBlk.iblk7_apply m c t) (KArrBlk.iblk8_apply m c t)
    (KArrBlk.iblk9_apply m c t) (KArrBlk.iblk10_apply m c t)

/-- Point `t` writes back, to the 48-wide result, block `t` of the specification's array. -/
theorem flushed11_eq (t : Fin cfg0.N) :
    (Gen.dats (F := Ideal) m 0 c).flushed 11 t = ((cfg0.win 11).blk t).view.read (Elt Ideal)
      (Mlp.P48 (m ((c.tc : Thread nD τ).loc main_arg0)) (m ((c.tc : Thread nD τ).loc main_arg1))
        (m ((c.tc : Thread nD τ).loc main_arg3)) (m ((c.tc : Thread nD τ).loc main_arg4))) := by
  show (cfg0.win 11).cut (grid0.coords t) ((Gen.dats (F := Ideal) m 0 c).after 11 t) = _
  rw [Gen.after0_11]
  funext j
  obtain ⟨p, q, rfl⟩ : ∃ (p : Fin 1000) (q : Fin 48), j = ix2 p q := ⟨j 0, j 1, eq_ix2 j⟩
  rw [View.read_apply]
  have hi : ((cfg0.win 11).blk t).view.emb (ix2 p q) = (ix2 ⟨t.val * 1000 + p.val, KArrBlk.row_lt t p⟩ q : S50000x48.Idx) := by
    obtain ⟨-, -, -, -, e0, e1, -⟩ := KArrBlk.idx_rows t
    funext a
    apply Fin.ext
    match a with
    | ⟨0, _⟩ => show win0_11.index t (0 : Fin 2) * 1000 + 1 * p.val = t.val * 1000 + p.val; rw [e0]; omega
    | ⟨1, _⟩ => show win0_11.index t (1 : Fin 2) * 48 + 1 * q.val = q.val; rw [e1]; omega
  show Gen.out0_11 (F := Ideal) (Gen.iblk m c 0 t) (Gen.iblk m c 1 t) (Gen.iblk m c 2 t) (Gen.iblk m c 3 t) (Gen.iblk m c 4 t)
      (Gen.iblk m c 5 t) (Gen.iblk m c 6 t) (Gen.iblk m c 7 t) (Gen.iblk m c 8 t) (Gen.iblk m c 9 t) (Gen.iblk m c 10 t) (ix2 p q)
    = Mlp.P48 (m ((c.tc : Thread nD τ).loc main_arg0)) (m ((c.tc : Thread nD τ).loc main_arg1))
        (m ((c.tc : Thread nD τ).loc main_arg3)) (m ((c.tc : Thread nD τ).loc main_arg4)) (((cfg0.win 11).blk t).view.emb (ix2 p q))
  rw [hi]
  exact out11_row (Gen.iblk m c 0 t) (Gen.iblk m c 1 t) (Gen.iblk m c 2 t) (Gen.iblk m c 3 t) (Gen.iblk m c 4 t)
    (Gen.iblk m c 5 t) (Gen.iblk m c 6 t) (Gen.iblk m c 7 t) (Gen.iblk m c 8 t) (Gen.iblk m c 9 t) (Gen.iblk m c 10 t)
    (m ((c.tc : Thread nD τ).loc main_arg0)) (m ((c.tc : Thread nD τ).loc main_arg1))
    (m ((c.tc : Thread nD τ).loc main_arg3)) (m ((c.tc : Thread nD τ).loc main_arg4)) p ⟨t.val * 1000 + p.val, KArrBlk.row_lt t p⟩ q
    (KArrBlk.iblk0_apply m c t p) (KArrBlk.iblk1_apply m c t p) (KArrBlk.iblk2_apply m c t) (KArrBlk.iblk3_apply m c t)

/-! ## The blocks cover the arrays -/

/-- An index of the 512-wide result is in point `t`'s block iff each coordinate is in the block's range. -/
theorem mem_blk12 (t : Fin cfg0.N) (i : S50000x512.Idx) :
    i ∈ ((cfg0.win 12).blk t).view.set ↔ ∀ a : Fin 2, win0_12.index t a * S1000x512.size a ≤ (i a).val ∧ (i a).val < win0_12.index t a * S1000x512.size a + S1000x512.size a := by
  show i ∈ ((View.whole main_v11_1).slice (win0_12.rect t)).set ↔ _
  rw [View.set_slice_whole, Rect.mem_set_unit]
  exact Iff.rfl

theorem mem_blk11 (t : Fin cfg0.N) (i : S50000x48.Idx) :
    i ∈ ((cfg0.win 11).blk t).view.set ↔ ∀ a : Fin 2, win0_11.index t a * S1000x48.size a ≤ (i a).val ∧ (i a).val < win0_11.index t a * S1000x48.size a + S1000x48.size a := by
  show i ∈ ((View.whole main_v11_0).slice (win0_11.rect t)).set ↔ _
  rw [View.set_slice_whole, Rect.mem_set_unit]
  exact Iff.rfl

/-- The point that covers row `r`. -/
def pointOfRow (r : Nat) (h : r < 50000) : Fin cfg0.N := ⟨r / 1000, by rw [show cfg0.N = 50 from Gen.N_0]; omega⟩

theorem cover12 (i : S50000x512.Idx) : ∃ t : Fin cfg0.N, (cfg0.win 12).flush t = true ∧ i ∈ ((cfg0.win 12).blk t).view.set := by
  have hi0 : (i 0).val < 50000 := (i 0).isLt
  have hi1 : (i 1).val < 512 := (i 1).isLt
  refine ⟨pointOfRow (i 0).val hi0, Gen.flush0_12 _, ?_⟩
  obtain ⟨-, -, -, -, -, -, e0, e1⟩ := KArrBlk.idx_rows (pointOfRow (i 0).val hi0)
  have ev : (pointOfRow (i 0).val hi0).val = (i 0).val / 1000 := rfl
  rw [mem_blk12]
  intro a
  match a with
  | ⟨0, _⟩ =>
    show win0_12.index (pointOfRow (i 0).val hi0) (0 : Fin 2) * 1000 ≤ (i 0).val ∧ (i 0).val < win0_12.index (pointOfRow (i 0).val hi0) (0 : Fin 2) * 1000 + 1000
    rw [e0, ev]; omega
  | ⟨1, _⟩ =>
    show win0_12.index (pointOfRow (i 0).val hi0) (1 : Fin 2) * 512 ≤ (i 1).val ∧ (i 1).val < win0_12.index (pointOfRow (i 0).val hi0) (1 : Fin 2) * 512 + 512
    rw [e1]; omega

theorem cover11 (i : S50000x48.Idx) : ∃ t : Fin cfg0.N, (cfg0.win 11).flush t = true ∧ i ∈ ((cfg0.win 11).blk t).view.set := by
  have hi0 : (i 0).val < 50000 := (i 0).isLt
  have hi1 : (i 1).val < 48 := (i 1).isLt
  refine ⟨pointOfRow (i 0).val hi0, Gen.flush0_11 _, ?_⟩
  obtain ⟨-, -, -, -, e0, e1, -⟩ := KArrBlk.idx_rows (pointOfRow (i 0).val hi0)
  have ev : (pointOfRow (i 0).val hi0).val = (i 0).val / 1000 := rfl
  rw [mem_blk11]
  intro a
  match a with
  | ⟨0, _⟩ =>
    show win0_11.index (pointOfRow (i 0).val hi0) (0 : Fin 2) * 1000 ≤ (i 0).val ∧ (i 0).val < win0_11.index (pointOfRow (i 0).val hi0) (0 : Fin 2) * 1000 + 1000
    rw [e0, ev]; omega
  | ⟨1, _⟩ =>
    show win0_11.index (pointOfRow (i 0).val hi0) (1 : Fin 2) * 48 ≤ (i 1).val ∧ (i 1).val < win0_11.index (pointOfRow (i 0).val hi0) (1 : Fin 2) * 48 + 48
    rw [e1]; omega

/-! ## The two arrays after the last point -/

theorem final11 (m : (ℓ : Loc nD τ sig) → Buf (Elt Ideal) ℓ) (c : Dev nD) :
    (Gen.dats (F := Ideal) m 0 c).arrAt 11 cfg0.N =
      Mlp.P48 (m ((c.tc : Thread nD τ).loc main_arg0)) (m ((c.tc : Thread nD τ).loc main_arg1))
        (m ((c.tc : Thread nD τ).loc main_arg3)) (m ((c.tc : Thread nD τ).loc main_arg4)) :=
  (Gen.dats (F := Ideal) m 0 c).arrAt_eq_of_cover 11 _ (fun t _ => flushed11_eq m c t) cover11

theorem final12 (m : (ℓ : Loc nD τ sig) → Buf (Elt Ideal) ℓ) (c : Dev nD) :
    (Gen.dats (F := Ideal) m 0 c).arrAt 12 cfg0.N =
      Mlp.P512 (m ((c.tc : Thread nD τ).loc main_arg1)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) :=
  (Gen.dats (F := Ideal) m 0 c).arrAt_eq_of_cover 12 _ (fun t _ => flushed12_eq m c t) cover12

end Cert.KernelIdeal.KArr

end
-- ==== Proof.KRun.lean ====
/-
  The program's run with its three results named.

  The grid leaves two arrays with one row per point: 48 numbers (16 neighbours × 3 coordinates) and 512 numbers
  (16 neighbours × 32 units). Four lines follow the grid. Two of them read those arrays in row-major order under the
  shapes [800000, 3] and [800000, 32]; the other two repeat each point's integer label once per neighbour
  ([50000] → [50000, 16]) and flatten the result to [800000].

  Row-major order decides which entry lands where. Entry (r, d) of the [800000, 3] array is the (3·r + d)-th number;
  among rows of 48 that is row r / 16, column 3·(r % 16) + d: coordinate d of neighbour r % 16 of point r / 16.
  Likewise entry (r, u) of the [800000, 32] array is the (32·r + u)-th number, row r / 16 and column 32·(r % 16) + u
  among rows of 512: unit u of neighbour r % 16 of point r / 16. So the re-laid arrays are the specification's
  `G31` and `G13` once the per-point arrays are its `P48` and `P512`.
-/
import proofs.«135425_j45389214384421_2_alg».proof.Proof.KArr
import Idealize.ShloMosaic.Lib.Pipeline.Value

noncomputable section

namespace Cert.KernelIdeal.KRun

open Idealize.ShloMosaic Idealize.ShloMosaic.ValueIdx Idealize.SL.Sem Cert.KernelIdeal

/-! ## The re-layout, in the specification's vocabulary -/

/-- The 48-per-point positions read as 3 per neighbour: entry `(r, d)` has row-major position `3·r + d`, which is
    row `r / 16`, column `3·(r % 16) + d` of the per-point array; that column's neighbour is `r % 16` and its
    coordinate `d`. -/
theorem relayout48 (a0 : Mlp.A2 50000 3) (a1 : Mlp.A2 50000 160) (a3 : Mlp.A2 32 48) (a4 : Mlp.A1 48)
    (h : (⟨2, ![50000, 48]⟩ : Shape).ShapeCasts ⟨2, ![800000, 3]⟩) :
    shapeCast ⟨2, ![800000, 3]⟩ (Mlp.P48 a0 a1 a3 a4) h = Mlp.G31 a0 a1 a3 a4 := by
  funext r
  obtain ⟨p, d, rfl⟩ : ∃ (p : Fin 800000) (d : Fin 3), r = ix2 p d := ⟨r 0, r 1, eq_ix2 r⟩
  have hp := p.isLt
  have hd := d.isLt
  refine (shapeCast_apply _ h (ix2 p d)
    (ix2 (⟨p.val / 16, by omega⟩ : Fin 50000) (⟨3 * (p.val % 16) + d.val, by omega⟩ : Fin 48)) ?_).trans ?_
  · rw [Shape.rowMajor_val_two, Shape.rowMajor_val_two]
    show p.val / 16 * 48 + (3 * (p.val % 16) + d.val) = p.val * 3 + d.val
    omega
  · unfold Mlp.P48 Mlp.G31 Mlp.pointOf Mlp.nbOf
    congr 1
    · exact Fin.ext (by show (3 * (p.val % 16) + d.val) / 3 = p.val % 16; omega)
    · exact Fin.ext (by show (3 * (p.val % 16) + d.val) % 3 = d.val; omega)

/-- The 512-per-point outputs read as 32 per neighbour: entry `(r, u)` has row-major position `32·r + u`, which is
    row `r / 16`, column `32·(r % 16) + u` of the per-point array; that column's neighbour is `r % 16` and its
    unit `u`. -/
theorem relayout512 (a1 : Mlp.A2 50000 160) (a3 : Mlp.A2 32 48) (a4 : Mlp.A1 48) (a5 : Mlp.A2 131 256) (a6 : Mlp.A1 256)
    (a7 : Mlp.A2 256 128) (a8 : Mlp.A1 128) (a9 : Mlp.A2 128 32) (a10 : Mlp.A1 32)
    (h : (⟨2, ![50000, 512]⟩ : Shape).ShapeCasts ⟨2, ![800000, 32]⟩) :
    shapeCast ⟨2, ![800000, 32]⟩ (Mlp.P512 a1 a3 a4 a5 a6 a7 a8 a9 a10) h = Mlp.G13 a1 a3 a4 a5 a6 a7 a8 a9 a10 := by
  funext r
  obtain ⟨p, u, rfl⟩ : ∃ (p : Fin 800000) (u : Fin 32), r = ix2 p u := ⟨r 0, r 1, eq_ix2 r⟩
  have hp := p.isLt
  have hu := u.isLt
  refine (shapeCast_apply _ h (ix2 p u)
    (ix2 (⟨p.val / 16, by omega⟩ : Fin 50000) (⟨32 * (p.val % 16) + u.val, by omega⟩ : Fin 512)) ?_).trans ?_
  · rw [Shape.rowMajor_val_two, Shape.rowMajor_val_two]
    show p.val / 16 * 512 + (32 * (p.val % 16) + u.val) = p.val * 32 + u.val
    omega
  · unfold Mlp.P512 Mlp.G13 Mlp.pointOf Mlp.nbOf
    congr 1
    · exact Fin.ext (by show (32 * (p.val % 16) + u.val) / 32 = p.val % 16; omega)
    · exact Fin.ext (by show (32 * (p.val % 16) + u.val) % 32 = u.val; omega)

/-! ## The region's two output arrays as the lines after the region find them -/

/-- When the grid is done, the array of the positions' window holds `P48` of the arguments. -/
theorem arr11 (m : (ℓ : Loc nD τ sig) → Buf (Elt Ideal) ℓ) (c : Dev nD) :
    Pipeline.withArrays (cfgs 0).spec c (Gen.V0 m c) (fun w => (Gen.dats (F := Ideal) m 0 c).arrAt w (cfgs 0).N)
        (Proc.devRef .tc main_v11_0)
      = Mlp.P48 (m ((c.tc : Thread nD τ).loc main_arg0)) (m ((c.tc : Thread nD τ).loc main_arg1))
          (m ((c.tc : Thread nD τ).loc main_arg3)) (m ((c.tc : Thread nD τ).loc main_arg4)) :=
  (Pipeline.withArrays_arr spec0 Gen.launch0.win.arr_inj c _ _ 11).trans (KArr.final11 m c)

/-- When the grid is done, the array of the outputs' window holds `P512` of the arguments. -/
theorem arr12 (m : (ℓ : Loc nD τ sig) → Buf (Elt Ideal) ℓ) (c : Dev nD) :
    Pipeline.withArrays (cfgs 0).spec c (Gen.V0 m c) (fun w => (Gen.dats (F := Ideal) m 0 c).arrAt w (cfgs 0).N)
        (Proc.devRef .tc main_v11_1)
      = Mlp.P512 (m ((c.tc : Thread nD τ).loc main_arg1)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (Pipeline.withArrays_arr spec0 Gen.launch0.win.arr_inj c _ _ 12).trans (KArr.final12 m c)

/-- The integer labels are no window's array and no earlier line writes them: after the grid they are the argument. -/
theorem arg2 (m : (ℓ : Loc nD τ sig) → Buf (Elt Ideal) ℓ) (c : Dev nD) :
    Pipeline.withArrays (cfgs 0).spec c (Gen.V0 m c) (fun w => (Gen.dats (F := Ideal) m 0 c).arrAt w (cfgs 0).N)
        (Proc.devRef .tc main_arg2)
      = m ((c.tc : Thread nD τ).loc main_arg2) :=
  (Pipeline.withArrays_of_ne _ c (Gen.V0 m c) _ main_arg2
    (by exact (by decide : ∀ w, Pipeline.arrRef spec0 w ≠ main_arg2))).trans (Gen.V_main_arg2 m c)

/-! ## The three results of the lines after the region -/

/-- The first result: the positions' array under the shape [800000, 3]. -/
theorem tail12 (m : (ℓ : Loc nD τ sig) → Buf (Elt Ideal) ℓ) (c : Dev nD) :
    Pipeline.afterTail₀ cfgs (Gen.dats (F := Ideal) m) 0 (Gen.V0 m) [Gen.hostOps1] c main_v12
      = Mlp.G31 (m ((c.tc : Thread nD τ).loc main_arg0)) (m ((c.tc : Thread nD τ).loc main_arg1))
          (m ((c.tc : Thread nD τ).loc main_arg3)) (m ((c.tc : Thread nD τ).loc main_arg4)) := by
  unfold Pipeline.afterTail₀
  show StableHlo.after Gen.hostOps1 _ (Proc.devRef .tc main_v12) = _
  after_results
  rw [arr11 m c]
  exact relayout48 _ _ _ _ _

/-- The second result: the outputs' array under the shape [800000, 32]. -/
theorem tail13 (m : (ℓ : Loc nD τ sig) → Buf (Elt Ideal) ℓ) (c : Dev nD) :
    Pipeline.afterTail₀ cfgs (Gen.dats (F := Ideal) m) 0 (Gen.V0 m) [Gen.hostOps1] c main_v13
      = Mlp.G13 (m ((c.tc : Thread nD τ).loc main_arg1)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Pipeline.afterTail₀
  show StableHlo.after Gen.hostOps1 _ (Proc.devRef .tc main_v13) = _
  after_results
  rw [arr12 m c]
  exact relayout512 _ _ _ _ _ _ _ _ _ _

/-- The third result: each point's label repeated for its 16 neighbours, flattened. Nothing of the grid enters it. -/
theorem tail15 (m : (ℓ : Loc nD τ sig) → Buf (Elt Ideal) ℓ) (c : Dev nD) :
    Pipeline.afterTail₀ cfgs (Gen.dats (F := Ideal) m) 0 (Gen.V0 m) [Gen.hostOps1] c main_v15
      = shapeCast _ (broadcastInDim S50000x16 ![0] Gen.bcast_S50000_S50000x16_0 (m ((c.tc : Thread nD τ).loc main_arg2)))
          Gen.shapeCasts_S50000x16_S800000 := by
  unfold Pipeline.afterTail₀
  show StableHlo.after Gen.hostOps1 _ (Proc.devRef .tc main_v15) = _
  after_results
  rw [arg2 m c]
  rfl

/-! ## The run -/

/-- Every fair execution of the program terminates; at the end the first result holds the neighbours' positions, the
    second the perceptron's outputs, the third each point's integer label repeated for its 16 neighbours, and the
    eleven arguments are as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12)
          = Mlp.G31 (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_v13)
          = Mlp.G13 (m ((c.tc : Thread nD τ).loc main_arg1)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_v15)
          = shapeCast _ (broadcastInDim S50000x16 ![0] Gen.bcast_S50000_S50000x16_0 (m ((c.tc : Thread nD τ).loc main_arg2)))
              Gen.shapeCasts_S50000x16_S800000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v12 (Pipeline.mem_restRefs_of main_v12 (by decide) (by decide))).trans (tail12 m c),
      ((h c).2 main_v13 (Pipeline.mem_restRefs_of main_v13 (by decide) (by decide))).trans (tail13 m c),
      ((h c).2 main_v15 (Pipeline.mem_restRefs_of main_v15 (by decide) (by decide))).trans (tail15 m c),
      ((h c).1 1).trans (((Gen.dats m 0 c).arrAt_in 1 rfl _).trans ((Gen.A_eq m c 1).trans (Gen.V_main_arg0 m c))),
      ((h c).1 0).trans (((Gen.dats m 0 c).arrAt_in 0 rfl _).trans ((Gen.A_eq m c 0).trans (Gen.V_main_arg1 m c))),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c)⟩)
    (Gen.run_main m ρ)

end Cert.KernelIdeal.KRun

end
-- ==== Proof.lean ====
/-
  The certificate of a point-cloud decoder: for each of 50000 points a linear map of the first 32 features gives
  16 neighbour offsets of 3 coordinates; each neighbour is scored by a three-layer perceptron (131 → 256 → 128 → 32,
  a maximum with zero after every layer) fed with its 3 offset coordinates followed by the point's other 128 features;
  the results are the 800000 neighbours' positions (point + offset / 4), their 32 scores, and the batch index repeated
  16 times.

  The kernel works on blocks of 1000 points. It never forms the 131-wide input: the first layer's sum over 131 inputs
  is split into the part over the 128 shared features (computed once per point, with the bias) and the three-term
  part of each neighbour, and the two are added. On the extended reals addition is commutative and associative with
  no exception, so the split sum, regrouped, IS the reference's single sum over 131 inputs; no other law is used, and
  the finiteness of the inputs is never needed. Narrowing a product's operands to a shorter float format is the
  identity at this reading, and a product into a zero accumulator is the plain sum.

  The kernel writes its two float results one row per point (16 × 3 and 16 × 32 entries side by side) and the program
  re-lays them as one row per neighbour: entry (r, d) of the result is entry (r / 16, (r % 16) · width + d) before.
  The reference repeats rows 16 times and joins the offsets to them; read entry by entry both are the same function
  of the argument arrays (Spec.lean). The integer result is literally the same expression in both programs.

  No rewrite was applied when the kernel was read at the extended reals, so the idealization is the program's own
  text and that claim is trivial.
-/
import proofs.«135425_j45389214384421_2_alg».proof.Defs
import proofs.«135425_j45389214384421_2_alg».proof.Proof.Gen.Kernel
import proofs.«135425_j45389214384421_2_alg».proof.Proof.Gen.Kernel.Skeleton
import proofs.«135425_j45389214384421_2_alg».proof.Proof.Gen.Kernel.Launch
import proofs.«135425_j45389214384421_2_alg».proof.Proof.Gen.Kernel.Points
import proofs.«135425_j45389214384421_2_alg».proof.Proof.Gen.Kernel.Frame
import proofs.«135425_j45389214384421_2_alg».proof.Proof.Gen.KernelIdeal
import proofs.«135425_j45389214384421_2_alg».proof.Proof.Gen.KernelIdeal.Skeleton
import proofs.«135425_j45389214384421_2_alg».proof.Proof.Gen.KernelIdeal.Launch
import proofs.«135425_j45389214384421_2_alg».proof.Proof.Gen.KernelIdeal.Points
import proofs.«135425_j45389214384421_2_alg».proof.Proof.Gen.KernelIdeal.Frame
import proofs.«135425_j45389214384421_2_alg».proof.Proof.Gen.ReferenceIdeal
import proofs.«135425_j45389214384421_2_alg».proof.Proof.Gen.ReferenceIdeal.Run
import proofs.«135425_j45389214384421_2_alg».proof.Proof.Gen.ReferenceIdeal.Read
import proofs.«135425_j45389214384421_2_alg».proof.Proof.Gen.Pre_finite_inputs
import proofs.«135425_j45389214384421_2_alg».proof.Proof.RefValue
import proofs.«135425_j45389214384421_2_alg».proof.Proof.KRun
import Idealize.ShloMosaic.Adequacy
import Idealize.ShloMosaic.Init

noncomputable section

namespace Cert.Proof

open Idealize.ShloMosaic Idealize.SL.Sem

/-- The word-level kernel runs to the end and leaves its arguments alone. -/
theorem frame_k : Cert.frame_Kernel := fun m ρ _ => Cert.Kernel.Gen.frame m ρ
/-- So does the kernel read at the extended reals. -/
theorem frame_ki : Cert.frame_KernelIdeal := fun m ρ _ => Cert.KernelIdeal.Gen.frame m ρ
/-- The reference is a straight line of host operations: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the neighbours' positions, their scores and the repeated batch index as the same three
    functions of the argument arrays: the kernel's by its blocks, the re-layout and the specification; the reference's
    by its operations read entry by entry and the regrouping of the first layer's sum. -/
theorem algebraic : Cert.algebraic_KernelIdeal_ReferenceIdeal := by
  intro m ρ m' ρ' _ hagree
  refine ⟨_, _, _, Cert.KernelIdeal.KRun.run m ρ, ?_⟩
  refine (θ_run Cert.ReferenceIdeal.defs _ _).mono (fun _ h c => ?_) (Cert.ReferenceIdeal.Value.run (F := Ideal) m' ρ')
  obtain ⟨h31, h26, h8, hargs⟩ := h c
  obtain ⟨a0, a1, a2, a3, a4, a5, a6, a7, a8, a9, a10⟩ := hagree c
  refine ⟨h31.trans ?_, h26.trans ?_, h8.trans ?_, hargs⟩
  · rw [a0, a1, a3, a4]
    exact (Cert.ReferenceIdeal.Read.val_main_v31_eq (F := Ideal) _ _ _ _).trans (Cert.ReferenceIdeal.RefValue.ref_pts _ _ _ _)
  · rw [a1, a3, a4, a5, a6, a7, a8, a9, a10]
    exact (Cert.ReferenceIdeal.Read.val_main_v26_eq (F := Ideal) _ _ _ _ _ _ _ _ _).trans
      (Cert.ReferenceIdeal.RefValue.ref_fc3 _ _ _ _ _ _ _ _ _)
  · rw [a2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
